-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v86_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86_0) = v0 c
          ∧ r.2.mem ((c.tc : Thread Cert.KernelIdeal.nD Cert.KernelIdeal.τ).loc Cert.KernelIdeal.main_v86_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S32 .f32) (main_arg6 : FVec F S32x40 .f32) (main_arg7 : FVec F S40 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x40 .f32 := Host.absf main_arg6
  let main_cst_8 : FVec F S_ .f32 := constant S_ .f32 0x7F800000#32
  let main_v25 : FVec F S32x40 .f32 := broadcastInDim S32x40 ![] bcast_S_S32x40 main_cst_8
  let main_v26 : IVec S32x40 1 := cmpf .olt main_v24 main_v25
  let main_c_9 : IVec S_ 1 := constantI S_ 1 1#1
  let main_v27 : IVec S_ 1 := (fun x v => Host.reduce IntOp.andi x v reducesTo_S32x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) (main_arg6 : FVec F S32x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x40 : Shape := ⟨2, ![32, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x64 : Shape := ⟨2, ![1, 64]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x32 : Shape := ⟨2, ![1, 32]⟩
abbrev S1x40 : Shape := ⟨2, ![1, 40]⟩
abbrev S50000x32 : Shape := ⟨2, ![50000, 32]⟩
abbrev S50000x40 : Shape := ⟨2, ![50000, 40]⟩
abbrev S10000x32 : Shape := ⟨2, ![10000, 32]⟩
abbrev S10000x40 : Shape := ⟨2, ![10000, 40]⟩

abbrev nBuf : Space → Nat
  | .hbm => 118
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x1, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S1x64, .f32⟩
  | .hbm, ⟨81, _⟩ => ⟨S50000x64, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x64, .f32⟩
  | .hbm, ⟨91, _⟩ => ⟨S850000x1, .f32⟩
  | .hbm, ⟨92, _⟩ => ⟨S850000x64, .f32⟩
  | .hbm, ⟨93, _⟩ => ⟨S850000x64, .f32⟩
  | .hbm, ⟨94, _⟩ => ⟨S_, .f32⟩
  | .hbm, ⟨95, _⟩ => ⟨S50000x64, .f32⟩
  | .hbm, ⟨96, _⟩ => ⟨S850000x1, .i32⟩
  | .hbm, ⟨97, _⟩ => ⟨S50000x64, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x64, .f32⟩
  | .hbm, ⟨107, _⟩ => ⟨S850000x1, .f32⟩
  | .hbm, ⟨108, _⟩ => ⟨S850000x64, .f32⟩
  | .hbm, ⟨109, _⟩ => ⟨S850000x64, .f32⟩
  | .hbm, ⟨110, _⟩ => ⟨S_, .f32⟩
  | .hbm, ⟨111, _⟩ => ⟨S50000x64, .f32⟩
  | .hbm, ⟨112, _⟩ => ⟨S850000x1, .i32⟩
  | .hbm, ⟨113, _⟩ => ⟨S50000x64, .f32⟩
  | .hbm, ⟨114, _⟩ => ⟨S1x32, .f32⟩
  | .hbm, ⟨115, _⟩ => ⟨S1x40, .f32⟩
  | .hbm, ⟨116, _⟩ => ⟨S50000x32, .f32⟩
  | .hbm, ⟨117, _⟩ => ⟨S50000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x32, .f32⟩
  | .local _ .vmem, ⟨9, _⟩ => ⟨S1x32, .f32⟩
  | .local _ .vmem, ⟨10, _⟩ => ⟨S32x40, .f32⟩
  | .local _ .vmem, ⟨11, _⟩ => ⟨S1x40, .f32⟩
  | .local _ .vmem, ⟨12, _⟩ => ⟨S10000x32, .f32⟩
  | .local _ .vmem, ⟨13, _⟩ => ⟨S10000x32, .f32⟩
  | .local _ .vmem, ⟨14, _⟩ => ⟨S10000x40, .f32⟩
  | .local _ .vmem, ⟨15, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86_0 : Ref sig .tc := ⟨.hbm, 116, rfl⟩
abbrev main_v86_1 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S32_S1x32 : S32.ShapeCasts S1x32
  shapeCasts_S40_S1x40 : S40.ShapeCasts S1x40
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S32x40_S32x40_0_0 : ∀ a, (![0, 0] : Fin 2 → Nat) a + S32x40.size a ≤ S32x40.size a
  h_S32x40 : 0 < S32x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x32_S10000x32_1_0_0_1_n_n_wf : DotDims.WF S10000x64 S64x32 S10000x32 [1] [0] [0] [1] [] []
  dot_S10000x32_S32x40_S10000x40_1_0_0_1_n_n_wf : DotDims.WF S10000x32 S32x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x40.size a ≤ S32x40.size a
  hwx1_3 : ∀ i : grid1.Coords, EltTy.bits .f32 = 32 ∨ (Rect.block (s := S32x40) S32x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S50000x32.size a
  hwx1_5 : ∀ i : grid1.Coords, EltTy.bits .f32 = 32 ∨ (Rect.block (s := S50000x32) S10000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x40.size a ≤ S50000x40.size a
  hwx1_6 : ∀ i : grid1.Coords, EltTy.bits .f32 = 32 ∨ (Rect.block (s := S50000x40) S10000x40.size (cc1_transform_6 i) (hinb1_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x40_S10000x40_1_0_0_1_n_n : DotDims S10000x32 S32x40 S10000x40 where
  lhsContracting := [1]
  rhsContracting := [0]
  lhsNonContracting := [0]
  rhsNonContracting := [1]
  lhsBatch := []
  rhsBatch := []
  wf := dot_S10000x32_S32x40_S10000x40_1_0_0_1_n_n_wf

abbrev win0_0 : Pipeline.Window sig grid0 :=
  Pipeline.Window.ofSpec (Memref.whole main_v55) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v83) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v85) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v86_0) S10000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v86_1) S10000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x40 : Shape := ⟨2, ![32, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x64 : Shape := ⟨2, ![50000, 64]⟩
abbrev S1x64 : Shape := ⟨2, ![1, 64]⟩
abbrev S850000x64 : Shape := ⟨2, ![850000, 64]⟩
abbrev S50000x32 : Shape := ⟨2, ![50000, 32]⟩
abbrev S1x32 : Shape := ⟨2, ![1, 32]⟩
abbrev S50000x40 : Shape := ⟨2, ![50000, 40]⟩
abbrev S1x40 : Shape := ⟨2, ![1, 40]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x32, .f32⟩
  | 5 => ⟨S32, .f32⟩
  | 6 => ⟨S32x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x1, .f32⟩
  | 74 => ⟨S850000x128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x64, .f32⟩
  | 96 => ⟨S850000x1, .f32⟩
  | 97 => ⟨S850000x64, .f32⟩
  | 98 => ⟨S850000x64, .f32⟩
  | 99 => ⟨S_, .f32⟩
  | 100 => ⟨S50000x64, .f32⟩
  | 101 => ⟨S850000x1, .i32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S50000x32, .f32⟩
  | 120 => ⟨S1x32, .f32⟩
  | 121 => ⟨S50000x32, .f32⟩
  | 122 => ⟨S50000x32, .f32⟩
  | 123 => ⟨S_, .f32⟩
  | 124 => ⟨S50000x32, .f32⟩
  | 125 => ⟨S50000x32, .f32⟩
  | 126 => ⟨S50000x40, .f32⟩
  | 127 => ⟨S1x40, .f32⟩
  | _ => ⟨S50000x128, .f32⟩

abbrev hbmTy0_1 (i : Nat) : BufTy := match i % 128 with
  | 0 => ⟨S50000x40, .f32⟩
  | 1 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_c_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call2_cst : Ref sig .tc := ⟨.hbm, 123, rfl⟩
abbrev main_call2_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S850000x1_S850000x64_0_1 : S850000x1.BroadcastsInDim S850000x64 (![0, 1] : Fin 2 → Fin S850000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  dot_S50000x32_S32x40_S50000x40_1_0_0_1_n_n_wf : DotDims.WF S50000x32 S32x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x40_S50000x40_1_0_0_1_n_n : DotDims S50000x32 S32x40 S50000x40 where
  lhsContracting := [1]
  rhsContracting := [0]
  lhsNonContracting := [0]
  rhsNonContracting := [1]
  lhsBatch := []
  rhsBatch := []
  wf := dot_S50000x32_S32x40_S50000x40_1_0_0_1_n_n_wf

class Facts : Prop extends Facts₀ where

variable [Facts]
-- ==== Proof.Propagation.lean ====
/-
  The graph propagation both programs run on the host, named once.

  From the 2×800000 edge list e the programs form the 850000 edge ends with the self loops appended: the sources
  (row 0 of e, then the node numbers 0..49999) and the targets (row 1 of e, then the same node numbers). A node's
  degree is the number of edge ends whose target it is, accumulated into zeros; its inverse square root is taken where
  the degree is positive and is zero elsewhere; an edge's weight is the product of that quantity at its source and at
  its target (a negative node number wrapped by 50000 first). One propagation step gathers each edge's source row of a
  50000×D array, scales it by the edge's weight, and accumulates it into the edge's target row of a zero array.

  Everything here is a composition of the programs' own host operations on the extended reals, written in the order
  and with the operand records the programs print, so that each program's term IS this composition by unfolding: the
  certificate never opens a gather or an accumulating scatter. The step is stated with the edge ends and the weights as
  parameters (`stepWith…`), the form a stretch of host operations between two kernels meets, and closed over the edge
  list (`step…`).
-/
import proofs.«140774_j5686536700273_1_alg».proof.Proof.Gen.ReferenceIdeal
import Idealize.ShloMosaic.PureOps.Ideal

noncomputable section

namespace Cert.Propagation

open Idealize.ShloMosaic Cert.ReferenceIdeal Cert.ReferenceIdeal.Gen

/-- The edge list: row 0 the sources, row 1 the targets. -/
abbrev EdgeList := (⟨S2x800000, .i32⟩ : BufTy).Contents (Elt Ideal)
/-- One node number per edge end, the self loops included. -/
abbrev Ends := (⟨S850000, .i32⟩ : BufTy).Contents (Elt Ideal)
/-- One extended real per edge end. -/
abbrev PerEdge := (⟨S850000, .f32⟩ : BufTy).Contents (Elt Ideal)
/-- One extended real per node. -/
abbrev PerNode := (⟨S50000, .f32⟩ : BufTy).Contents (Elt Ideal)
abbrev Feat128 := (⟨S50000x128, .f32⟩ : BufTy).Contents (Elt Ideal)
abbrev Feat64 := (⟨S50000x64, .f32⟩ : BufTy).Contents (Elt Ideal)

/-- Row 0 of the edge list followed by the node numbers 0..49999. -/
def sources (e : EdgeList) : Ends :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Row 1 of the edge list followed by the node numbers 0..49999. -/
def targets (e : EdgeList) : Ends :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end: v + 50000 where v < 0, v elsewhere. -/
def wrapped (v : Ends) : Ends :=
  select (cmpi .slt v (broadcastInDim S850000 ![] bcast_S_S850000 (constantI S_ 32 0#32))) (addi v (broadcastInDim S850000 ![] bcast_S_S850000 (constantI S_ 32 50000#32))) v

/-- A node's degree: one for every edge end whose target it is, accumulated into zeros. -/
def degree (dst : Ends) : PerNode :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 dst) (broadcastInDim S850000 ![] bcast_S_S850000 (constant (F := Ideal) S_ .f32 0x3F800000#32))

/-- Is the degree positive, node by node. -/
def positive (dst : Ends) : (⟨S50000, .i1⟩ : BufTy).Contents (Elt Ideal) :=
  cmpf (F := Ideal) .ogt (degree dst) (broadcastInDim S50000 ![] bcast_S_S50000 (constant (F := Ideal) S_ .f32 0x00000000#32))

/-- The inverse square root of the degree where the degree is positive, the zero word elsewhere. -/
def invSqrtDegree (dst : Ends) : PerNode :=
  select (positive dst) (Host.rsqrt (F := Ideal) (φ := .f32) (degree dst)) (broadcastInDim S50000 ![] bcast_S_S50000 (id (constant (F := Ideal) S_ .f32 0x00000000#32)))

/-- An edge's weight from a per-node quantity d: d at its source times d at its target. -/
def weightWith (src dst : Ends) (d : PerNode) : PerEdge :=
  mulf (F := Ideal) (φ := .f32) (Host.gather gather_S50000_S850000x1_S850000_n_0_n_n_0_1_1 d (broadcastInDim S850000x1 ![0] bcast_S850000_S850000x1_0 (wrapped src))) (Host.gather gather_S50000_S850000x1_S850000_n_0_n_n_0_1_1 d (broadcastInDim S850000x1 ![0] bcast_S850000_S850000x1_0 (wrapped dst)))

/-- One propagation step at feature width 128: each edge's source row, scaled by the edge's weight, accumulated into
    the edge's target row of a zero array. -/
def stepWith128 (src dst : Ends) (w : PerEdge) (x : Feat128) : Feat128 :=
  Host.scatterAdd (F := Ideal) scatter_S50000x128_S850000x1_S850000x128_1_0_0_1 (broadcastInDim S50000x128 ![] bcast_S_S50000x128 (constant (F := Ideal) S_ .f32 0x00000000#32)) (broadcastInDim S850000x1 ![0] bcast_S850000_S850000x1_0 dst) (mulf (F := Ideal) (φ := .f32) (Host.gather gather_S50000x128_S850000x1_S850000x128_1_0_n_n_0_1_1128 x (broadcastInDim S850000x1 ![0] bcast_S850000_S850000x1_0 (wrapped src))) (broadcastInDim S850000x128 ![0, 1] bcast_S850000x1_S850000x128_0_1 (broadcastInDim S850000x1 ![0] bcast_S850000_S850000x1_0 w)))

/-- The same step at feature width 64. -/
def stepWith64 (src dst : Ends) (w : PerEdge) (h : Feat64) : Feat64 :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 dst) (mulf (F := Ideal) (φ := .f32) (Host.gather gather_S50000x64_S850000x1_S850000x64_1_0_n_n_0_1_164 h (broadcastInDim S850000x1 ![0] bcast_S850000_S850000x1_0 (wrapped src))) (broadcastInDim S850000x64 ![0, 1] bcast_S850000x1_S850000x64_0_1 (broadcastInDim S850000x1 ![0] bcast_S850000_S850000x1_0 w)))

/-- The weights of the edge list's edges. -/
def weights (e : EdgeList) : PerEdge := weightWith (sources e) (targets e) (invSqrtDegree (targets e))

/-- Two propagation steps over the edge list, at width 128 and at width 64. -/
def twoSteps128 (e : EdgeList) (x : Feat128) : Feat128 :=
  stepWith128 (sources e) (targets e) (weights e) (stepWith128 (sources e) (targets e) (weights e) x)

def twoSteps64 (e : EdgeList) (h : Feat64) : Feat64 :=
  stepWith64 (sources e) (targets e) (weights e) (stepWith64 (sources e) (targets e) (weights e) h)

end Cert.Propagation

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«140774_j5686536700273_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«140774_j5686536700273_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«140774_j5686536700273_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«140774_j5686536700273_1_alg».proof.Proof.LibBlockReads
import proofs.«140774_j5686536700273_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«140774_j5686536700273_1_alg».proof.Proof.LibMatProd
import proofs.«140774_j5686536700273_1_alg».proof.Proof.LibBiasRelu
import proofs.«140774_j5686536700273_1_alg».proof.Proof.LibRowVector
import proofs.«140774_j5686536700273_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«140774_j5686536700273_1_alg».proof.Proof.LibBlockReads
import proofs.«140774_j5686536700273_1_alg».proof.Proof.LibMatProd
import proofs.«140774_j5686536700273_1_alg».proof.Proof.LibBiasRelu
import proofs.«140774_j5686536700273_1_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.LibReluLayers.lean ====
/-
  Two dense layers, each followed by a clamp below at zero, and one affine layer, on the extended reals, as functions
  of whole arrays with each bias given as a 1×n ROW.

  `twoLayers X W₁ r₁ W₂ r₂` takes an r×k array X to the r×n array max((max(X·W₁ + r₁, 0))·W₂ + r₂, 0), the rows r₁, r₂
  added to every row of the products; `rowAffine X W r` is X·W + r. An entry of either depends on ONE row of X, so
  applied to a block of rows of X they give the same rows of the result for the whole of X (`twoLayers_rows`,
  `rowAffine_rows`: the index inside the block and the index in the whole array as variables). Two spellings are read
  once each: a kernel body's (the left block re-shaped in place, both operands of each product narrowed to a shorter
  float format, products into zeros, the bias row re-shaped in place and broadcast down the rows, the maximum with a
  splat of the zero word: `body_twoLayers`, `body_rowAffine`) and a host program's (dot_general, the bias VECTOR
  broadcast to a 1×n row and that to r×n, the maximum with a broadcast zero constant: `host_twoLayers`,
  `host_rowAffine`, with `asRow` of the vector as the row). Nothing is distributed or cancelled, so no finiteness is
  asked. Nothing here mentions a program.
-/
import Idealize.ShloMosaic.PureOps.Ideal.Laws
import Idealize.ShloMosaic.Lib.ValueIdx
import Idealize.ShloMosaic.Lib.Pipeline.Value
import proofs.«140774_j5686536700273_1_alg».proof.Proof.LibBlockReads
import proofs.«140774_j5686536700273_1_alg».proof.Proof.LibMatProd
import proofs.«140774_j5686536700273_1_alg».proof.Proof.LibRowBlocks
import proofs.«140774_j5686536700273_1_alg».proof.Proof.LibBiasRelu
import proofs.«140774_j5686536700273_1_alg».proof.Proof.LibRowVector
import proofs.«140774_j5686536700273_1_alg».proof.Proof.LibDenseLayers
import proofs.«140774_j5686536700273_1_alg».proof.Proof.LibInPlaceBodies

open scoped BigOperators

noncomputable section

namespace Cert.Lib.ReluLayers

open Idealize.ShloMosaic Idealize.ShloMosaic.ValueIdx Cert.Lib.MatProd Cert.Lib.BiasRelu Cert.Lib.RowVector
open Cert.Lib.RowBlocks Cert.Lib.InPlaceBodies Cert.Layers

variable {r r' k h n : Nat}

/-- max((max(X·W₁ + r₁, 0))·W₂ + r₂, 0): two dense layers, each clamped below at the zero word. -/
def twoLayers (X : (⟨2, ![r, k]⟩ : Shape).Idx → EReal) (W₁ : (⟨2, ![k, h]⟩ : Shape).Idx → EReal)
    (r₁ : (⟨2, ![1, h]⟩ : Shape).Idx → EReal) (W₂ : (⟨2, ![h, n]⟩ : Shape).Idx → EReal)
    (r₂ : (⟨2, ![1, n]⟩ : Shape).Idx → EReal) : (⟨2, ![r, n]⟩ : Shape).Idx → EReal :=
  biasRelu (matProd (biasRelu (matProd X W₁) r₁) W₂) r₂

/-- X·W + r: one layer, no clamp. -/
def rowAffine (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasAdd (matProd X W) b

/-- If row (y 0) of X' is row (i 0) of X and y, i are in the same column, the two layers of X' at y are the two
    layers of X at i: the inner product, its bias and clamp, the outer product, its bias and clamp each depend on that
    one row only. -/
theorem twoLayers_rows (X : (⟨2, ![r, k]⟩ : Shape).Idx → EReal) (X' : (⟨2, ![r', k]⟩ : Shape).Idx → EReal)
    (W₁ : (⟨2, ![k, h]⟩ : Shape).Idx → EReal) (r₁ : (⟨2, ![1, h]⟩ : Shape).Idx → EReal)
    (W₂ : (⟨2, ![h, n]⟩ : Shape).Idx → EReal) (r₂ : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    twoLayers X' W₁ r₁ W₂ r₂ y = twoLayers X W₁ r₁ W₂ r₂ i := by
  unfold twoLayers
  refine biasRelu_at _ _ r₂ y i ?_ hcol
  refine matProd_rows _ _ W₂ y i (fun c => ?_) hcol
  refine biasRelu_at _ _ r₁ _ _ ?_ rfl
  exact matProd_rows X X' W₁ _ _ (fun c' => hX c') rfl

/-- The same for one affine layer. -/
theorem rowAffine_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    rowAffine X' W b y = rowAffine X W b i := by
  unfold rowAffine
  exact biasAdd_at _ _ b y i (matProd_rows X X' W y i hX hcol) hcol

/-! ## A kernel body's spelling -/

/-- A 1×n row re-shaped in place, broadcast down the rows of an r×n matrix, added, and the maximum with a splat of
    the zero word: the bias row and the clamp in one. -/
theorem clamp_row (M : (⟨2, ![r, n]⟩ : Shape).Idx → EReal) (x : FVec Ideal ⟨2, ![1, n]⟩ .f32)
    (hc : (⟨2, ![1, n]⟩ : Shape).ShapeCasts ⟨2, ![1, n]⟩) (hb : (⟨2, ![1, n]⟩ : Shape).Broadcasts ⟨2, ![r, n]⟩) :
    maximumf (F := Ideal) (s := ⟨2, ![r, n]⟩) (φ := .f32)
      (addf (F := Ideal) (s := ⟨2, ![r, n]⟩) (φ := .f32) M (broadcastTo ⟨2, ![r, n]⟩ (shapeCast ⟨2, ![1, n]⟩ x hc) hb))
      (broadcast ⟨2, ![r, n]⟩ (Scalar.ofBits (F := Ideal) .f32 0x00000000#32)) = biasRelu M x := by
  funext i
  obtain ⟨p, q, rfl⟩ : ∃ (p : Fin r) (q : Fin n), i = ix2 p q := ⟨i 0, i 1, eq_ix2 i⟩
  rw [maximumf_apply, addf_apply, shapeCast_self, Cert.Lib.BlockReads.broadcast_row_apply]
  rfl

/-- The same without the clamp. -/
theorem bias_row (M : (⟨2, ![r, n]⟩ : Shape).Idx → EReal) (x : FVec Ideal ⟨2, ![1, n]⟩ .f32)
    (hc : (⟨2, ![1, n]⟩ : Shape).ShapeCasts ⟨2, ![1, n]⟩) (hb : (⟨2, ![1, n]⟩ : Shape).Broadcasts ⟨2, ![r, n]⟩) :
    addf (F := Ideal) (s := ⟨2, ![r, n]⟩) (φ := .f32) M (broadcastTo ⟨2, ![r, n]⟩ (shapeCast ⟨2, ![1, n]⟩ x hc) hb)
      = biasAdd M x := by
  funext i
  obtain ⟨p, q, rfl⟩ : ∃ (p : Fin r) (q : Fin n), i = ix2 p q := ⟨i 0, i 1, eq_ix2 i⟩
  rw [addf_apply, shapeCast_self, Cert.Lib.BlockReads.broadcast_row_apply]
  rfl

/-- The body of a two-layer kernel: the left block re-shaped in place, both operands of each product narrowed,
    products into zeros, each bias a 1×n block re-shaped in place and broadcast, each clamp a maximum with a splat. -/
theorem body_twoLayers {ψ : FTy}
    (d₁ : DotDims ⟨2, ![r, k]⟩ ⟨2, ![k, h]⟩ ⟨2, ![r, h]⟩)
    (h1lc : d₁.lhsContracting = [1]) (h1rc : d₁.rhsContracting = [0]) (h1ln : d₁.lhsNonContracting = [0])
    (h1rn : d₁.rhsNonContracting = [1]) (h1lb : d₁.lhsBatch = []) (h1rb : d₁.rhsBatch = [])
    (d₂ : DotDims ⟨2, ![r, h]⟩ ⟨2, ![h, n]⟩ ⟨2, ![r, n]⟩)
    (h2lc : d₂.lhsContracting = [1]) (h2rc : d₂.rhsContracting = [0]) (h2ln : d₂.lhsNonContracting = [0])
    (h2rn : d₂.rhsNonContracting = [1]) (h2lb : d₂.lhsBatch = []) (h2rb : d₂.rhsBatch = [])
    (hψ : ψ.bits < FTy.f32.bits)
    (hc0 : (⟨2, ![r, k]⟩ : Shape).ShapeCasts ⟨2, ![r, k]⟩)
    (hc2 : (⟨2, ![1, h]⟩ : Shape).ShapeCasts ⟨2, ![1, h]⟩) (hb2 : (⟨2, ![1, h]⟩ : Shape).Broadcasts ⟨2, ![r, h]⟩)
    (hc4 : (⟨2, ![1, n]⟩ : Shape).ShapeCasts ⟨2, ![1, n]⟩) (hb4 : (⟨2, ![1, n]⟩ : Shape).Broadcasts ⟨2, ![r, n]⟩)
    (x0 : FVec Ideal ⟨2, ![r, k]⟩ .f32) (x1 : FVec Ideal ⟨2, ![k, h]⟩ .f32) (x2 : FVec Ideal ⟨2, ![1, h]⟩ .f32)
    (x3 : FVec Ideal ⟨2, ![h, n]⟩ .f32) (x4 : FVec Ideal ⟨2, ![1, n]⟩ .f32) :
    maximumf (addf (matmul d₂ none
        (truncf ψ (maximumf (addf (matmul d₁ none (truncf ψ (shapeCast ⟨2, ![r, k]⟩ x0 hc0) hψ) (truncf ψ x1 hψ)
            (constant ⟨2, ![r, h]⟩ .f32 0x00000000#32)) (broadcastTo ⟨2, ![r, h]⟩ (shapeCast ⟨2, ![1, h]⟩ x2 hc2) hb2))
          (broadcast ⟨2, ![r, h]⟩ (Scalar.ofBits (F := Ideal) .f32 0x00000000#32))) hψ)
        (truncf ψ x3 hψ) (constant ⟨2, ![r, n]⟩ .f32 0x00000000#32))
        (broadcastTo ⟨2, ![r, n]⟩ (shapeCast ⟨2, ![1, n]⟩ x4 hc4) hb4))
      (broadcast ⟨2, ![r, n]⟩ (Scalar.ofBits (F := Ideal) .f32 0x00000000#32))
      = twoLayers x0 x1 x2 x3 x4 := by
  rw [narrowed_product_cast d₁ h1lc h1rc h1ln h1rn h1lb h1rb none hψ hc0 x0 x1,
    clamp_row (matProd x0 x1) x2 hc2 hb2,
    narrowed_product (φ := .f32) d₂ h2lc h2rc h2ln h2rn h2lb h2rb none hψ (biasRelu (matProd x0 x1) x2) x3,
    clamp_row (matProd (biasRelu (matProd x0 x1) x2) x3) x4 hc4 hb4]
  rfl

/-- The body of a one-layer kernel without a clamp. -/
theorem body_rowAffine {ψ : FTy}
    (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (hψ : ψ.bits < FTy.f32.bits)
    (hc0 : (⟨2, ![r, k]⟩ : Shape).ShapeCasts ⟨2, ![r, k]⟩)
    (hc2 : (⟨2, ![1, n]⟩ : Shape).ShapeCasts ⟨2, ![1, n]⟩) (hb2 : (⟨2, ![1, n]⟩ : Shape).Broadcasts ⟨2, ![r, n]⟩)
    (x0 : FVec Ideal ⟨2, ![r, k]⟩ .f32) (x1 : FVec Ideal ⟨2, ![k, n]⟩ .f32) (x2 : FVec Ideal ⟨2, ![1, n]⟩ .f32) :
    addf (matmul d none (truncf ψ (shapeCast ⟨2, ![r, k]⟩ x0 hc0) hψ) (truncf ψ x1 hψ)
        (constant ⟨2, ![r, n]⟩ .f32 0x00000000#32)) (broadcastTo ⟨2, ![r, n]⟩ (shapeCast ⟨2, ![1, n]⟩ x2 hc2) hb2)
      = rowAffine x0 x1 x2 := by
  rw [narrowed_product_cast d hlc hrc hln hrn hlb hrb none hψ hc0 x0 x1, bias_row (matProd x0 x1) x2 hc2 hb2]
  rfl

/-! ## A host program's spelling -/

/-- The host's plain dot_general is the matrix product. -/
theorem host_product (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) :
    Host.dotGeneral d none X W = matProd X W :=
  dotGeneral_eq_matProd d hlc hrc hln hrn hlb hrb none .single X W

/-- The reference's two layers: dot_general, the bias vector broadcast to a row and to the matrix, added, the maximum
    with a broadcast zero constant, twice. -/
theorem host_twoLayers
    (d₁ : DotDims ⟨2, ![r, k]⟩ ⟨2, ![k, h]⟩ ⟨2, ![r, h]⟩)
    (h1lc : d₁.lhsContracting = [1]) (h1rc : d₁.rhsContracting = [0]) (h1ln : d₁.lhsNonContracting = [0])
    (h1rn : d₁.rhsNonContracting = [1]) (h1lb : d₁.lhsBatch = []) (h1rb : d₁.rhsBatch = [])
    (d₂ : DotDims ⟨2, ![r, h]⟩ ⟨2, ![h, n]⟩ ⟨2, ![r, n]⟩)
    (h2lc : d₂.lhsContracting = [1]) (h2rc : d₂.rhsContracting = [0]) (h2ln : d₂.lhsNonContracting = [0])
    (h2rn : d₂.rhsNonContracting = [1]) (h2lb : d₂.lhsBatch = []) (h2rb : d₂.rhsBatch = [])
    (g1a : (⟨1, ![h]⟩ : Shape).BroadcastsInDim ⟨2, ![1, h]⟩ ![1])
    (g1b : (⟨2, ![1, h]⟩ : Shape).BroadcastsInDim ⟨2, ![r, h]⟩ ![0, 1])
    (g1z : (⟨0, ![]⟩ : Shape).BroadcastsInDim ⟨2, ![r, h]⟩ ![])
    (g2a : (⟨1, ![n]⟩ : Shape).BroadcastsInDim ⟨2, ![1, n]⟩ ![1])
    (g2b : (⟨2, ![1, n]⟩ : Shape).BroadcastsInDim ⟨2, ![r, n]⟩ ![0, 1])
    (g2z : (⟨0, ![]⟩ : Shape).BroadcastsInDim ⟨2, ![r, n]⟩ ![])
    (X : FVec Ideal ⟨2, ![r, k]⟩ .f32) (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32) :
    maximumf (addf (Host.dotGeneral d₂ none
        (maximumf (addf (Host.dotGeneral d₁ none X W₁)
            (broadcastInDim ⟨2, ![r, h]⟩ ![0, 1] g1b (broadcastInDim ⟨2, ![1, h]⟩ ![1] g1a b₁)))
          (broadcastInDim ⟨2, ![r, h]⟩ ![] g1z (constant (F := Ideal) ⟨0, ![]⟩ .f32 0x00000000#32))) W₂)
        (broadcastInDim ⟨2, ![r, n]⟩ ![0, 1] g2b (broadcastInDim ⟨2, ![1, n]⟩ ![1] g2a b₂)))
      (broadcastInDim ⟨2, ![r, n]⟩ ![] g2z (constant (F := Ideal) ⟨0, ![]⟩ .f32 0x00000000#32))
      = twoLayers X W₁ (asRow b₁) W₂ (asRow b₂) := by
  rw [host_product d₁ h1lc h1rc h1ln h1rn h1lb h1rb X W₁,
    Cert.Lib.BiasRelu.host_eq (matProd X W₁) b₁ g1a g1b g1z,
    host_product d₂ h2lc h2rc h2ln h2rn h2lb h2rb (biasRelu (matProd X W₁) (asRow b₁)) W₂,
    Cert.Lib.BiasRelu.host_eq (matProd (biasRelu (matProd X W₁) (asRow b₁)) W₂) b₂ g2a g2b g2z]
  rfl

/-- The reference's affine layer. -/
theorem host_rowAffine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (ga : (⟨1, ![n]⟩ : Shape).BroadcastsInDim ⟨2, ![1, n]⟩ ![1])
    (gb : (⟨2, ![1, n]⟩ : Shape).BroadcastsInDim ⟨2, ![r, n]⟩ ![0, 1])
    (X : FVec Ideal ⟨2, ![r, k]⟩ .f32) (W : FVec Ideal ⟨2, ![k, n]⟩ .f32) (b : FVec Ideal ⟨1, ![n]⟩ .f32) :
    addf (Host.dotGeneral d none X W) (broadcastInDim ⟨2, ![r, n]⟩ ![0, 1] gb (broadcastInDim ⟨2, ![1, n]⟩ ![1] ga b))
      = rowAffine X W (asRow b) := by
  rw [host_product d hlc hrc hln hrn hlb hrb X W, Cert.Layers.host_bias (matProd X W) b ga gb]
  rfl

end Cert.Lib.ReluLayers

end
-- ==== Proof.LibLayerBlocks.lean ====
/-
  A dense layer clamped below at zero, and that layer followed by an affine one, on the extended reals, as functions
  of whole arrays with each bias given as a 1×n ROW; and the spelling a kernel body gives them when it re-shapes the
  loaded bias row in place TWICE before broadcasting it.

  `reluLayer X W b` takes an r×k array X to the r×n array max(X·W + b, 0), the row b added to every row of the product;
  `reluThenAffine X W₁ b₁ W₂ b₂` is (max(X·W₁ + b₁, 0))·W₂ + b₂. An entry of either depends on ONE row of X: applied
  to a block of rows of X they give the same rows of the result for the whole of X (`reluLayer_rows`,
  `reluThenAffine_rows`, the index inside the block and the index in the whole array as variables). A kernel body
  spells the first as: the left block re-shaped in place, both operands narrowed to a shorter float format (the
  identity on the extended reals), the product accumulated into zeros, the 1×n bias block re-shaped in place twice and
  broadcast down the rows, added, and the maximum taken with a splat of the zero word (`body_reluLayer`); the second
  continues with the clamped block narrowed again, a second product into zeros and a second bias row
  (`body_reluThenAffine`). Nothing is distributed or cancelled, so no finiteness is asked.
  Nothing here mentions a program.
-/
import Idealize.ShloMosaic.PureOps.Ideal.Laws
import Idealize.ShloMosaic.Lib.ValueIdx
import Idealize.ShloMosaic.Lib.Pipeline.Value
import proofs.«140774_j5686536700273_1_alg».proof.Proof.LibReluLayers

open scoped BigOperators

noncomputable section

namespace Cert.Lib.LayerBlocks

open Idealize.ShloMosaic Idealize.ShloMosaic.ValueIdx Cert.Lib.MatProd Cert.Lib.BiasRelu Cert.Lib.RowBlocks
open Cert.Lib.InPlaceBodies Cert.Layers Cert.Lib.ReluLayers

variable {r r' k h n : Nat}

/-- max(X·W + b, 0): entry (p, q) is the larger of ∑ c, X(p, c) · W(c, q) + b(0, q) and the zero word. -/
def reluLayer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- (max(X·W₁ + b₁, 0))·W₂ + b₂. -/
def reluThenAffine (X : (⟨2, ![r, k]⟩ : Shape).Idx → EReal) (W₁ : (⟨2, ![k, h]⟩ : Shape).Idx → EReal)
    (b₁ : (⟨2, ![1, h]⟩ : Shape).Idx → EReal) (W₂ : (⟨2, ![h, n]⟩ : Shape).Idx → EReal)
    (b₂ : (⟨2, ![1, n]⟩ : Shape).Idx → EReal) : (⟨2, ![r, n]⟩ : Shape).Idx → EReal :=
  rowAffine (reluLayer X W₁ b₁) W₂ b₂

/-- If row (y 0) of X' is row (i 0) of X and y, i are in the same column, the layer of X' at y is the layer of X at i:
    the product's entry depends on that one row, the bias and the clamp on the entry and its column. -/
theorem reluLayer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    reluLayer X' W b y = reluLayer X W b i := by
  unfold reluLayer
  exact biasRelu_at _ _ b y i (matProd_rows X X' W y i hX hcol) hcol

/-- The same for the clamped layer followed by the affine one: the inner layer's row, then the outer product's entry,
    depend on that one row of X. -/
theorem reluThenAffine_rows (X : (⟨2, ![r, k]⟩ : Shape).Idx → EReal) (X' : (⟨2, ![r', k]⟩ : Shape).Idx → EReal)
    (W₁ : (⟨2, ![k, h]⟩ : Shape).Idx → EReal) (b₁ : (⟨2, ![1, h]⟩ : Shape).Idx → EReal)
    (W₂ : (⟨2, ![h, n]⟩ : Shape).Idx → EReal) (b₂ : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    reluThenAffine X' W₁ b₁ W₂ b₂ y = reluThenAffine X W₁ b₁ W₂ b₂ i := by
  unfold reluThenAffine
  refine rowAffine_rows _ _ W₂ b₂ y i (fun c => ?_) hcol
  exact reluLayer_rows X X' W₁ b₁ _ _ (fun c' => hX c') rfl

/-! ## A kernel body's spelling, the bias row re-shaped in place twice -/

/-- The body of a one-layer kernel with a clamp. -/
theorem body_reluLayer {ψ : FTy}
    (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (hψ : ψ.bits < FTy.f32.bits)
    (hc0 : (⟨2, ![r, k]⟩ : Shape).ShapeCasts ⟨2, ![r, k]⟩)
    (hc2 hc2' : (⟨2, ![1, n]⟩ : Shape).ShapeCasts ⟨2, ![1, n]⟩) (hb2 : (⟨2, ![1, n]⟩ : Shape).Broadcasts ⟨2, ![r, n]⟩)
    (x0 : FVec Ideal ⟨2, ![r, k]⟩ .f32) (x1 : FVec Ideal ⟨2, ![k, n]⟩ .f32) (x2 : FVec Ideal ⟨2, ![1, n]⟩ .f32) :
    maximumf (addf (matmul d none (truncf ψ (shapeCast ⟨2, ![r, k]⟩ x0 hc0) hψ) (truncf ψ x1 hψ)
          (constant ⟨2, ![r, n]⟩ .f32 0x00000000#32))
        (broadcastTo ⟨2, ![r, n]⟩ (shapeCast ⟨2, ![1, n]⟩ (shapeCast ⟨2, ![1, n]⟩ x2 hc2) hc2') hb2))
      (broadcast ⟨2, ![r, n]⟩ (Scalar.ofBits (F := Ideal) .f32 0x00000000#32))
      = reluLayer x0 x1 x2 := by
  rw [narrowed_product_cast d hlc hrc hln hrn hlb hrb none hψ hc0 x0 x1, shapeCast_self x2 hc2,
    clamp_row (matProd x0 x1) x2 hc2' hb2]
  rfl

/-- The body of a kernel that clamps one layer and feeds it to an affine one. -/
theorem body_reluThenAffine {ψ : FTy}
    (d₁ : DotDims ⟨2, ![r, k]⟩ ⟨2, ![k, h]⟩ ⟨2, ![r, h]⟩)
    (h1lc : d₁.lhsContracting = [1]) (h1rc : d₁.rhsContracting = [0]) (h1ln : d₁.lhsNonContracting = [0])
    (h1rn : d₁.rhsNonContracting = [1]) (h1lb : d₁.lhsBatch = []) (h1rb : d₁.rhsBatch = [])
    (d₂ : DotDims ⟨2, ![r, h]⟩ ⟨2, ![h, n]⟩ ⟨2, ![r, n]⟩)
    (h2lc : d₂.lhsContracting = [1]) (h2rc : d₂.rhsContracting = [0]) (h2ln : d₂.lhsNonContracting = [0])
    (h2rn : d₂.rhsNonContracting = [1]) (h2lb : d₂.lhsBatch = []) (h2rb : d₂.rhsBatch = [])
    (hψ : ψ.bits < FTy.f32.bits)
    (hc0 : (⟨2, ![r, k]⟩ : Shape).ShapeCasts ⟨2, ![r, k]⟩)
    (hc2 hc2' : (⟨2, ![1, h]⟩ : Shape).ShapeCasts ⟨2, ![1, h]⟩) (hb2 : (⟨2, ![1, h]⟩ : Shape).Broadcasts ⟨2, ![r, h]⟩)
    (hc4 hc4' : (⟨2, ![1, n]⟩ : Shape).ShapeCasts ⟨2, ![1, n]⟩) (hb4 : (⟨2, ![1, n]⟩ : Shape).Broadcasts ⟨2, ![r, n]⟩)
    (x0 : FVec Ideal ⟨2, ![r, k]⟩ .f32) (x1 : FVec Ideal ⟨2, ![k, h]⟩ .f32) (x2 : FVec Ideal ⟨2, ![1, h]⟩ .f32)
    (x3 : FVec Ideal ⟨2, ![h, n]⟩ .f32) (x4 : FVec Ideal ⟨2, ![1, n]⟩ .f32) :
    addf (matmul d₂ none
        (truncf ψ (maximumf (addf (matmul d₁ none (truncf ψ (shapeCast ⟨2, ![r, k]⟩ x0 hc0) hψ) (truncf ψ x1 hψ)
            (constant ⟨2, ![r, h]⟩ .f32 0x00000000#32))
            (broadcastTo ⟨2, ![r, h]⟩ (shapeCast ⟨2, ![1, h]⟩ (shapeCast ⟨2, ![1, h]⟩ x2 hc2) hc2') hb2))
          (broadcast ⟨2, ![r, h]⟩ (Scalar.ofBits (F := Ideal) .f32 0x00000000#32))) hψ)
        (truncf ψ x3 hψ) (constant ⟨2, ![r, n]⟩ .f32 0x00000000#32))
      (broadcastTo ⟨2, ![r, n]⟩ (shapeCast ⟨2, ![1, n]⟩ (shapeCast ⟨2, ![1, n]⟩ x4 hc4) hc4') hb4)
      = reluThenAffine x0 x1 x2 x3 x4 := by
  rw [body_reluLayer d₁ h1lc h1rc h1ln h1rn h1lb h1rb hψ hc0 hc2 hc2' hb2 x0 x1 x2,
    narrowed_product (φ := .f32) d₂ h2lc h2rc h2ln h2rn h2lb h2rb none hψ (reluLayer x0 x1 x2) x3,
    shapeCast_self x4 hc4, bias_row (matProd (reluLayer x0 x1 x2) x3) x4 hc4' hb4]
  rfl

end Cert.Lib.LayerBlocks

end
-- ==== Proof.Network.lean ====
/-
  The network both programs compute, as functions of the argument arrays on the extended reals.

  With P = two propagation steps over the edge list e (Propagation.lean), the hidden features are
  max(P(x)·W₁ + b₁, 0), the embedding is max(P(hidden)·W₂ + b₂, 0), and the logits are embedding·W_f + b_f; each bias
  vector is added to every row. The kernel program computes the three dense stages block of rows by block of rows in two
  kernels and the propagations on the host between them; the reference computes everything on the host. Both results
  are these functions.
-/
import proofs.«140774_j5686536700273_1_alg».proof.Proof.Propagation
import proofs.«140774_j5686536700273_1_alg».proof.Proof.LibLayerBlocks

noncomputable section

namespace Cert.Network

open Idealize.ShloMosaic Cert.ReferenceIdeal Cert.Propagation Cert.Lib.LayerBlocks Cert.Lib.ReluLayers Cert.Lib.RowVector

abbrev Feat32 := (⟨S50000x32, .f32⟩ : BufTy).Contents (Elt Ideal)
abbrev Feat40 := (⟨S50000x40, .f32⟩ : BufTy).Contents (Elt Ideal)

/-- max(P(x)·W₁ + b₁, 0), 50000×64. -/
def hidden (x : Feat128) (e : EdgeList) (W1 : (⟨S128x64, .f32⟩ : BufTy).Contents (Elt Ideal))
    (b1 : (⟨S64, .f32⟩ : BufTy).Contents (Elt Ideal)) : Feat64 :=
  reluLayer (twoSteps128 e x) W1 (asRow b1)

/-- max(P(hidden)·W₂ + b₂, 0), 50000×32. -/
def embedding (x : Feat128) (e : EdgeList) (W1 : (⟨S128x64, .f32⟩ : BufTy).Contents (Elt Ideal))
    (b1 : (⟨S64, .f32⟩ : BufTy).Contents (Elt Ideal)) (W2 : (⟨S64x32, .f32⟩ : BufTy).Contents (Elt Ideal))
    (b2 : (⟨S32, .f32⟩ : BufTy).Contents (Elt Ideal)) : Feat32 :=
  reluLayer (twoSteps64 e (hidden x e W1 b1)) W2 (asRow b2)

/-- embedding·W_f + b_f, 50000×40. -/
def logits (x : Feat128) (e : EdgeList) (W1 : (⟨S128x64, .f32⟩ : BufTy).Contents (Elt Ideal))
    (b1 : (⟨S64, .f32⟩ : BufTy).Contents (Elt Ideal)) (W2 : (⟨S64x32, .f32⟩ : BufTy).Contents (Elt Ideal))
    (b2 : (⟨S32, .f32⟩ : BufTy).Contents (Elt Ideal)) (Wf : (⟨S32x40, .f32⟩ : BufTy).Contents (Elt Ideal))
    (bf : (⟨S40, .f32⟩ : BufTy).Contents (Elt Ideal)) : Feat40 :=
  rowAffine (embedding x e W1 b1 W2 b2) Wf (asRow bf)

/-- The logits are the affine layer after the clamped one, applied to the twice-propagated hidden features. -/
theorem logits_eq (x : Feat128) (e : EdgeList) (W1 : (⟨S128x64, .f32⟩ : BufTy).Contents (Elt Ideal))
    (b1 : (⟨S64, .f32⟩ : BufTy).Contents (Elt Ideal)) (W2 : (⟨S64x32, .f32⟩ : BufTy).Contents (Elt Ideal))
    (b2 : (⟨S32, .f32⟩ : BufTy).Contents (Elt Ideal)) (Wf : (⟨S32x40, .f32⟩ : BufTy).Contents (Elt Ideal))
    (bf : (⟨S40, .f32⟩ : BufTy).Contents (Elt Ideal)) :
    logits x e W1 b1 W2 b2 Wf bf
      = reluThenAffine (twoSteps64 e (hidden x e W1 b1)) W2 (asRow b2) Wf (asRow bf) := rfl

end Cert.Network

end
-- ==== Proof.RefValue.lean ====
/-
  The reference program's two results are the network's functions of its arguments.

  The reference's run (Proof/RefRunPatched.lean) ends with each result at the composed term of its 122 host
  operations. Read from the outside in, that term is: a dense stage in the host's spelling (dot_general,
  the bias vector broadcast to a row and then down the rows, added, and for the clamped stages the maximum with a
  broadcast zero) of two propagation steps of the previous stage. The propagation is never opened: the composed term is
  matched against `twoSteps…` by unfolding names only. Each host dense stage is then the layer function, entry by entry:
  the host's dot_general is the plain sum of products, its two broadcasts read the bias entry of the column.
-/
import proofs.«140774_j5686536700273_1_alg».proof.Proof.RefRunPatched
import proofs.«140774_j5686536700273_1_alg».proof.Proof.Network

noncomputable section

namespace Cert.ReferenceIdeal.RefValue

open Idealize.ShloMosaic Idealize.ShloMosaic.TcCoe Idealize.SL.Sem
open Cert.ReferenceIdeal Cert.ReferenceIdeal.Gen Cert.Propagation Cert.Network
open Cert.Lib.LayerBlocks Cert.Lib.ReluLayers Cert.Lib.RowVector Cert.Lib.MatProd Cert.Lib.BiasRelu

/-! ## The host's spelling of the three dense stages -/

/-- max(H·W + b, 0) as the reference spells it, 128 → 64. -/
def hostLayer1 (H : Feat128) (W : (⟨S128x64, .f32⟩ : BufTy).Contents (Elt Ideal))
    (b : (⟨S64, .f32⟩ : BufTy).Contents (Elt Ideal)) : Feat64 :=
  maximumf (F := Ideal) (φ := .f32) (addf (F := Ideal) (φ := .f32) (Host.dotGeneral (F := Ideal) (φ₁ := .f32) (φ₂ := .f32) dot_S50000x128_S128x64_S50000x64_1_0_0_1_n_n none (H : FVec Ideal S50000x128 .f32) (W : FVec Ideal S128x64 .f32)) (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32))

/-- The same, 64 → 32. -/
def hostLayer2 (H : Feat64) (W : (⟨S64x32, .f32⟩ : BufTy).Contents (Elt Ideal))
    (b : (⟨S32, .f32⟩ : BufTy).Contents (Elt Ideal)) : Feat32 :=
  maximumf (F := Ideal) (φ := .f32) (addf (F := Ideal) (φ := .f32) (Host.dotGeneral (F := Ideal) (φ₁ := .f32) (φ₂ := .f32) dot_S50000x64_S64x32_S50000x32_1_0_0_1_n_n none (H : FVec Ideal S50000x64 .f32) (W : FVec Ideal S64x32 .f32)) (broadcastInDim S50000x32 ![0, 1] bcast_S1x32_S50000x32_0_1 (broadcastInDim S1x32 ![1] bcast_S32_S1x32_1 b))) (broadcastInDim S50000x32 ![] bcast_S_S50000x32 (constant (F := Ideal) S_ .f32 0x00000000#32))

/-- E·W + b as the reference spells it, 32 → 40. -/
def hostAffine (E : Feat32) (W : (⟨S32x40, .f32⟩ : BufTy).Contents (Elt Ideal))
    (b : (⟨S40, .f32⟩ : BufTy).Contents (Elt Ideal)) : Feat40 :=
  addf (F := Ideal) (φ := .f32) (Host.dotGeneral (F := Ideal) (φ₁ := .f32) (φ₂ := .f32) dot_S50000x32_S32x40_S50000x40_1_0_0_1_n_n none (E : FVec Ideal S50000x32 .f32) (W : FVec Ideal S32x40 .f32)) (broadcastInDim S50000x40 ![0, 1] bcast_S1x40_S50000x40_0_1 (broadcastInDim S1x40 ![1] bcast_S40_S1x40_1 b))

theorem hostLayer1_eq (H : Feat128) (W : (⟨S128x64, .f32⟩ : BufTy).Contents (Elt Ideal))
    (b : (⟨S64, .f32⟩ : BufTy).Contents (Elt Ideal)) : hostLayer1 H W b = reluLayer H W (asRow b) := by
  unfold hostLayer1 reluLayer
  rw [host_product dot_S50000x128_S128x64_S50000x64_1_0_0_1_n_n rfl rfl rfl rfl rfl rfl H W]
  exact Cert.Lib.BiasRelu.host_eq (matProd H W) b bcast_S64_S1x64_1 bcast_S1x64_S50000x64_0_1 bcast_S_S50000x64

theorem hostLayer2_eq (H : Feat64) (W : (⟨S64x32, .f32⟩ : BufTy).Contents (Elt Ideal))
    (b : (⟨S32, .f32⟩ : BufTy).Contents (Elt Ideal)) : hostLayer2 H W b = reluLayer H W (asRow b) := by
  unfold hostLayer2 reluLayer
  rw [host_product dot_S50000x64_S64x32_S50000x32_1_0_0_1_n_n rfl rfl rfl rfl rfl rfl H W]
  exact Cert.Lib.BiasRelu.host_eq (matProd H W) b bcast_S32_S1x32_1 bcast_S1x32_S50000x32_0_1 bcast_S_S50000x32

theorem hostAffine_eq (E : Feat32) (W : (⟨S32x40, .f32⟩ : BufTy).Contents (Elt Ideal))
    (b : (⟨S40, .f32⟩ : BufTy).Contents (Elt Ideal)) : hostAffine E W b = rowAffine E W (asRow b) := by
  unfold hostAffine
  exact host_rowAffine dot_S50000x32_S32x40_S50000x40_1_0_0_1_n_n rfl rfl rfl rfl rfl rfl bcast_S40_S1x40_1
    bcast_S1x40_S50000x40_0_1 E W b

/-! ## The run's composed terms, read from the outside in -/

variable (m : (ℓ : Loc nD τ sig) → Buf (Elt Ideal) ℓ) (c : Dev nD)

set_option maxRecDepth 65536 in
set_option maxHeartbeats 2000000 in
/-- The first result's term is the host's clamped stage of two propagation steps of the host's clamped stage of two
    propagation steps of x: the same operations in the same order, the names unfolded. -/
theorem res0_stages : ValueP.res_main_v91 (F := Ideal) m c
    = hostLayer2 (twoSteps64 (m ((c.tc : Thread nD τ).loc main_arg1)) (hostLayer1 (twoSteps128 (m ((c.tc : Thread nD τ).loc main_arg1)) (m ((c.tc : Thread nD τ).loc main_arg0))) (m ((c.tc : Thread nD τ).loc main_arg2)) (m ((c.tc : Thread nD τ).loc main_arg3)))) (m ((c.tc : Thread nD τ).loc main_arg4)) (m ((c.tc : Thread nD τ).loc main_arg5)) := rfl

set_option maxRecDepth 65536 in
set_option maxHeartbeats 2000000 in
/-- The second result's term is the host's affine stage of the first result's. -/
theorem res1_stages : ValueP.res_main_v95 (F := Ideal) m c
    = hostAffine (hostLayer2 (twoSteps64 (m ((c.tc : Thread nD τ).loc main_arg1)) (hostLayer1 (twoSteps128 (m ((c.tc : Thread nD τ).loc main_arg1)) (m ((c.tc : Thread nD τ).loc main_arg0))) (m ((c.tc : Thread nD τ).loc main_arg2)) (m ((c.tc : Thread nD τ).loc main_arg3)))) (m ((c.tc : Thread nD τ).loc main_arg4)) (m ((c.tc : Thread nD τ).loc main_arg5))) (m ((c.tc : Thread nD τ).loc main_arg6)) (m ((c.tc : Thread nD τ).loc main_arg7)) := rfl

/-- The reference's first result is the embedding. -/
theorem res0_eq : ValueP.res_main_v91 (F := Ideal) m c
    = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res0_stages, hostLayer2_eq, hostLayer1_eq]
  rfl

/-- The reference's second result is the logits. -/
theorem res1_eq : ValueP.res_main_v95 (F := Ideal) m c
    = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [res1_stages, hostAffine_eq, hostLayer2_eq, hostLayer1_eq]
  rfl

end Cert.ReferenceIdeal.RefValue

end
-- ==== Proof.WholeRun.lean ====
/-
  The kernel program's run, with EVERY unscoped buffer named when it ends.

  The program's @main is six segments: three stretches of host operations, the first kernel's region, one more
  stretch, the second kernel's region. The buffer contents at each boundary are a fold from the launch memory: a
  stretch leaves the contents its operations compute from what it found; a region leaves its windows' arrays at what
  its write-backs leave and every other buffer as it found it. The launch of the segments one after the other shows that
  every weakly fair execution terminates without a fault, and that the final memory holds, at every unscoped buffer,
  the last boundary's contents. (The frame claim keeps of this only the eight argument buffers; the value claim needs
  the two result buffers, so the final predicate is kept whole here and read buffer by buffer afterwards.)
-/
import proofs.«140774_j5686536700273_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory satisfies: on every core, every unscoped buffer holds the last boundary's contents. -/
def AtLastBoundary (s : MemSt nD τ sig (Elt F)) : Prop :=
  ∀ c : Dev nD, ∀ b ∈ Pipeline.ucRefs τ sig, s.mem (((c : Thread nD τ)).1, b) = W6 m ρ c b

-- the launch theorem's implicit arguments are found by unifying its conclusion with this one, which takes unfolding
-- plain definitions in a metavariable's type
set_option backward.isDefEq.respectTransparency.types false in
/-- From any memory with zero counters, every weakly fair execution of @main terminates, nothing faulting, with every
    unscoped buffer at the last boundary's contents: the segments launched in order, the last thread state read against
    the final state. -/
theorem run : θ_run defs (onTc (τ := τ) (main (F := F))) ⟨m, fun _ => 0, ρ⟩ (fun r => AtLastBoundary m ρ r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- A final memory's contents at an unscoped reference of the TensorCore. -/
theorem AtLastBoundary.at {s : MemSt nD τ sig (Elt F)} (h : AtLastBoundary m ρ s) (c : Dev nD) (b : Ref sig .tc)
    (hb : ¬ (Proc.devRef .tc b : DevRef τ sig).isScoped) :
    s.mem ((c.tc : Thread nD τ).loc b) = W6 m ρ c (Proc.devRef .tc b) :=
  h c _ (mem_uc b hb)

end Cert.KernelIdeal.WholeRun

end
-- ==== Proof.FirstKernel.lean ====
/-
  The first kernel's output array when its region is left, as one function of the arrays the region is entered with.

  The kernel runs over 5 grid points. At point t it loads rows 10000·t … 10000·t + 9999 of the 50000×128 feature array,
  the whole 128×64 weight array and the whole 1×64 bias row, and stores max(block·W + bias, 0) into rows
  10000·t … 10000·t + 9999 of the 50000×64 output. An entry of max(H·W + bias, 0) depends on one row of H only, so what
  point t writes back is its block of rows of the whole-array layer of H; the five blocks cover the output; hence the
  output array ends as the layer of the whole feature array. Stated at ANY entry contents V, since the feature array is
  itself computed by host operations before the region.
-/
import proofs.«140774_j5686536700273_1_alg».proof.Proof.Gen.KernelIdeal.Frame
import proofs.«140774_j5686536700273_1_alg».proof.Proof.LibLayerBlocks
import Idealize.ShloMosaic.Lib.Pipeline.Value
import Idealize.ShloMosaic.Lib.ValueIdx

set_option maxRecDepth 16384

noncomputable section

namespace Cert.KernelIdeal.FirstKernel

open Idealize.ShloMosaic Idealize.ShloMosaic.TcCoe Idealize.ShloMosaic.ValueIdx Idealize.SL.Sem
open Idealize.ShloMosaic.Pipeline (Dat)
open Cert.KernelIdeal Cert.KernelIdeal.Gen Cert.Lib.LayerBlocks

variable (V : (c : Dev nD) → (b : Ref sig .tc) → Buf (Elt Ideal) ((c : Thread nD τ).loc b))

theorem zero_off : (![0, 0] : Fin 2 → Nat) = fun _ => 0 := funext fun a => by fin_cases a <;> rfl

/-- The body's stored value is the clamped layer of the three loaded blocks. -/
theorem payload_eq (x0 : Vec Ideal S10000x128 .f32) (x1 : Vec Ideal S128x64 .f32) (x2 : Vec Ideal S1x64 .f32) :
    k0_pay1 (F := Ideal) x0 x1 x2 = reluLayer x0 x1 x2 :=
  body_reluLayer (ψ := .bf16) dot_S10000x128_S128x64_S10000x64_1_0_0_1_n_n rfl rfl rfl rfl rfl rfl bitsLt_bf16_f32
    shapeCasts_S10000x128_S10000x128 shapeCasts_S1x64_S1x64 shapeCasts_S1x64_S1x64 broadcasts_S1x64_S10000x64 x0 x1 x2

/-- The index maps over the grid: the feature window moves with the output window along the rows and sits at column
    block 0; the weight and bias windows sit at block (0, 0); the output's row block is at most 4. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 4 :=
  (by decide +kernel : ∀ t : Fin grid0.N, _)

/-- Every row block of the output is some point's. -/
theorem index_onto : ∀ q : Fin 5, ∃ t : Fin cfg0.N, win0_3.index t = ![q.val, 0] :=
  (by decide +kernel : ∀ q : Fin 5, ∃ t : Fin grid0.N, win0_3.index t = ![q.val, 0])

/-- The weight window's block at any point is the whole weight array. -/
theorem weight_block (c : Dev nD) (t : Fin cfg0.N) : iblk0 V c 1 t = V c main_arg2 := by
  obtain ⟨-, -, e2, e3, -, -, -, -⟩ := index_facts t
  funext y
  show V c main_arg2 (((cfg0.win 1).blk t).view.emb y) = V c main_arg2 y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega
  rw [h]

/-- The bias window's block at any point is the whole bias row. -/
theorem bias_block (c : Dev nD) (t : Fin cfg0.N) : iblk0 V c 2 t = V c main_v56 := by
  obtain ⟨-, -, -, -, e4, e5, -, -⟩ := index_facts t
  funext y
  show V c main_v56 (((cfg0.win 2).blk t).view.emb y) = V c main_v56 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  rw [h]

/-- Entry j of the layer of a block of rows is entry i of the layer of the whole array, when row (j 0) of the block is
    row (i 0) of the array and j, i are in the same column: the literal shapes of this kernel. -/
theorem layer_at (H : S50000x128.Idx → EReal) (W : S128x64.Idx → EReal) (b : S1x64.Idx → EReal)
    (H' : S10000x128.Idx → EReal) (j : S10000x64.Idx) (i : S50000x64.Idx)
    (hH : ∀ q : Fin 128, H' (ix2 (⟨(j 0).val, idx2_lt0 j⟩ : Fin 10000) q) = H (ix2 (⟨(i 0).val, idx2_lt0 i⟩ : Fin 50000) q))
    (hcol : (j 1).val = (i 1).val) : reluLayer H' W b j = reluLayer H W b i :=
  reluLayer_rows H H' W b j i hH hcol

/-- WHAT POINT t WRITES BACK is its block of the layer of the whole arrays as the region finds them. -/
theorem flushed_eq (c : Dev nD) (t : Fin cfg0.N) :
    (dat0 V c).flushed 3 t
      = ((cfg0.win 3).blk t).view.read (Elt Ideal) (reluLayer (V c main_v55) (V c main_arg2) (V c main_v56)) := by
  show (cfg0.win 3).cut (grid0.coords t) ((dat0 V c).after 3 t) = _
  rw [after0_3]
  unfold out0_3
  rw [View.canon_unit_zero zero_off]
  simp only [View.ld_unit_zero (S := S10000x128) zero_off, View.ld_unit_zero (S := S128x64) zero_off,
    View.ld_unit_zero (S := S1x64) zero_off]
  rw [payload_eq, weight_block V c t, bias_block V c t]
  obtain ⟨e0, e1, -, -, -, -, e6, -⟩ := index_facts t
  funext j
  show reluLayer (iblk0 V c 0 t) (V c main_arg2) (V c main_v56) j
    = reluLayer (V c main_v55) (V c main_arg2) (V c main_v56) (((cfg0.win 3).blk t).view.emb j)
  refine layer_at (V c main_v55) (V c main_arg2) (V c main_v56) (iblk0 V c 0 t) j _ (fun q => ?_) ?_
  · show V c main_v55 (((cfg0.win 0).blk t).view.emb (ix2 (⟨(j 0).val, idx2_lt0 j⟩ : Fin 10000) q)) = _
    refine congrArg (V c main_v55) ?_
    funext a; apply Fin.ext
    match a with
    | ⟨0, _⟩ =>
      show win0_0.index t (0 : Fin 2) * 10000 + 1 * (j 0).val = win0_3.index t (0 : Fin 2) * 10000 + 1 * (j 0).val
      omega
    | ⟨1, _⟩ => show win0_0.index t (1 : Fin 2) * 128 + 1 * q.val = q.val; omega
  · show (j 1).val = win0_3.index t (1 : Fin 2) * 64 + 1 * (j 1).val
    omega

/-- An index of the output array is in point t's block iff each coordinate is in the block's range on its axis. -/
theorem mem_block (t : Fin cfg0.N) (i : S50000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v57).slice (win0_3.rect t)).set ↔ _
  rw [View.set_slice_whole, Rect.mem_set_unit]
  exact Iff.rfl

/-- The five blocks cover the output array: row r is in the block of the point whose row block is r / 10000. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- THE OUTPUT ARRAY when the region is left: the clamped layer of the feature array, the weights and the bias row
    the region was entered with. -/
theorem output_eq (c : Dev nD) :
    (dat0 V c).arrAt 3 cfg0.N = reluLayer (V c main_v55) (V c main_arg2) (V c main_v56) :=
  (dat0 V c).arrAt_eq_of_cover 3 _ (fun t _ => flushed_eq V c t) cover

end Cert.KernelIdeal.FirstKernel

end
-- ==== Proof.SecondKernel.lean ====
/-
  The second kernel's two output arrays when its region is left, as functions of the arrays the region is entered with.

  The kernel runs over 5 grid points. At point t it loads rows 10000·t … 10000·t + 9999 of the 50000×64 feature array and
  the whole of two weight arrays (64×32, 32×40) and two bias rows (1×32, 1×40); it stores E = max(block·W₂ + b₂, 0) into
  the same rows of the 50000×32 output and E·W_f + b_f into the same rows of the 50000×40 output. Entries of both depend
  on one row of the feature array only, so what point t writes back to either output is its block of rows of the
  whole-array function; the five blocks cover each output. Stated at ANY entry contents V: the feature array and the
  two bias rows are computed by host operations before the region.
-/
import proofs.«140774_j5686536700273_1_alg».proof.Proof.Gen.KernelIdeal.Frame
import proofs.«140774_j5686536700273_1_alg».proof.Proof.LibLayerBlocks
import Idealize.ShloMosaic.Lib.Pipeline.Value
import Idealize.ShloMosaic.Lib.ValueIdx

set_option maxRecDepth 16384

noncomputable section

namespace Cert.KernelIdeal.SecondKernel

open Idealize.ShloMosaic Idealize.ShloMosaic.TcCoe Idealize.ShloMosaic.ValueIdx Idealize.SL.Sem
open Idealize.ShloMosaic.Pipeline (Dat)
open Cert.KernelIdeal Cert.KernelIdeal.Gen Cert.Lib.LayerBlocks

variable (V : (c : Dev nD) → (b : Ref sig .tc) → Buf (Elt Ideal) ((c : Thread nD τ).loc b))

theorem zero_off : (![0, 0] : Fin 2 → Nat) = fun _ => 0 := funext fun a => by fin_cases a <;> rfl

/-- The first stored value is the clamped layer of the loaded feature block, weights and bias row. -/
theorem payload1_eq (x0 : Vec Ideal S10000x64 .f32) (x1 : Vec Ideal S64x32 .f32) (x2 : Vec Ideal S1x32 .f32) :
    k1_pay1 (F := Ideal) x0 x1 x2 = reluLayer x0 x1 x2 :=
  body_reluLayer (ψ := .bf16) dot_S10000x64_S64x32_S10000x32_1_0_0_1_n_n rfl rfl rfl rfl rfl rfl bitsLt_bf16_f32
    shapeCasts_S10000x64_S10000x64 shapeCasts_S1x32_S1x32 shapeCasts_S1x32_S1x32 broadcasts_S1x32_S10000x32 x0 x1 x2

/-- The second stored value is the affine layer of the first. -/
theorem payload2_eq (x0 : Vec Ideal S10000x64 .f32) (x1 : Vec Ideal S64x32 .f32) (x2 : Vec Ideal S1x32 .f32)
    (x3 : Vec Ideal S32x40 .f32) (x4 : Vec Ideal S1x40 .f32) :
    k1_pay2 (F := Ideal) x0 x1 x2 x3 x4 = reluThenAffine x0 x1 x2 x3 x4 :=
  body_reluThenAffine (ψ := .bf16) dot_S10000x64_S64x32_S10000x32_1_0_0_1_n_n rfl rfl rfl rfl rfl rfl
    dot_S10000x32_S32x40_S10000x40_1_0_0_1_n_n rfl rfl rfl rfl rfl rfl bitsLt_bf16_f32
    shapeCasts_S10000x64_S10000x64 shapeCasts_S1x32_S1x32 shapeCasts_S1x32_S1x32 broadcasts_S1x32_S10000x32
    shapeCasts_S1x40_S1x40 shapeCasts_S1x40_S1x40 broadcasts_S1x40_S10000x40 x0 x1 x2 x3 x4

/-- The index maps over the grid: the feature window and the two output windows move together along the rows, each at
    column block 0; the weight and bias windows sit at block (0, 0); the row block is at most 4. -/
theorem index_facts : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 4
    ∧ win1_6.index t (0 : Fin 2) = win1_5.index t (0 : Fin 2) ∧ win1_6.index t (1 : Fin 2) = 0 :=
  (by decide +kernel : ∀ t : Fin grid1.N, _)

/-- Every row block of either output is some point's. -/
theorem index_onto5 : ∀ q : Fin 5, ∃ t : Fin cfg1.N, win1_5.index t = ![q.val, 0] :=
  (by decide +kernel : ∀ q : Fin 5, ∃ t : Fin grid1.N, win1_5.index t = ![q.val, 0])
theorem index_onto6 : ∀ q : Fin 5, ∃ t : Fin cfg1.N, win1_6.index t = ![q.val, 0] :=
  (by decide +kernel : ∀ q : Fin 5, ∃ t : Fin grid1.N, win1_6.index t = ![q.val, 0])

/-- The blocks of the four whole-array windows are the arrays. -/
theorem weight2_block (c : Dev nD) (t : Fin cfg1.N) : iblk1 V c 1 t = V c main_arg4 := by
  obtain ⟨-, -, e2, e3, -, -, -, -, -, -, -, -, -, -⟩ := index_facts t
  funext y
  show V c main_arg4 (((cfg1.win 1).blk t).view.emb y) = V c main_arg4 y
  have h : ((cfg1.win 1).blk t).view.emb y = y := by
    funext a; apply Fin.ext
    match a with
    | ⟨0, _⟩ => show win1_1.index t (0 : Fin 2) * 64 + 1 * (y 0).val = (y 0).val; omega
    | ⟨1, _⟩ => show win1_1.index t (1 : Fin 2) * 32 + 1 * (y 1).val = (y 1).val; omega
  rw [h]

theorem bias2_block (c : Dev nD) (t : Fin cfg1.N) : iblk1 V c 2 t = V c main_v84 := by
  obtain ⟨-, -, -, -, e4, e5, -, -, -, -, -, -, -, -⟩ := index_facts t
  funext y
  show V c main_v84 (((cfg1.win 2).blk t).view.emb y) = V c main_v84 y
  have h : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 32 + 1 * (y 1).val = (y 1).val; omega
  rw [h]

theorem weightF_block (c : Dev nD) (t : Fin cfg1.N) : iblk1 V c 3 t = V c main_arg6 := by
  obtain ⟨-, -, -, -, -, -, e6, e7, -, -, -, -, -, -⟩ := index_facts t
  funext y
  show V c main_arg6 (((cfg1.win 3).blk t).view.emb y) = V c main_arg6 y
  have h : ((cfg1.win 3).blk t).view.emb y = y := by
    funext a; apply Fin.ext
    match a with
    | ⟨0, _⟩ => show win1_3.index t (0 : Fin 2) * 32 + 1 * (y 0).val = (y 0).val; omega
    | ⟨1, _⟩ => show win1_3.index t (1 : Fin 2) * 40 + 1 * (y 1).val = (y 1).val; omega
  rw [h]

theorem biasF_block (c : Dev nD) (t : Fin cfg1.N) : iblk1 V c 4 t = V c main_v85 := by
  obtain ⟨-, -, -, -, -, -, -, -, e8, e9, -, -, -, -⟩ := index_facts t
  funext y
  show V c main_v85 (((cfg1.win 4).blk t).view.emb y) = V c main_v85 y
  have h : ((cfg1.win 4).blk t).view.emb y = y := by
    funext a; apply Fin.ext
    match a with
    | ⟨0, _⟩ => show win1_4.index t (0 : Fin 2) * 1 + 1 * (y 0).val = (y 0).val; omega
    | ⟨1, _⟩ => show win1_4.index t (1 : Fin 2) * 40 + 1 * (y 1).val = (y 1).val; omega
  rw [h]

/-- Entry j of either function of a block of rows is entry i of it for the whole array, when row (j 0) of the block
    is row (i 0) of the array and j, i are in the same column: the literal shapes of this kernel. -/
theorem embedding_at (H : S50000x64.Idx → EReal) (W : S64x32.Idx → EReal) (b : S1x32.Idx → EReal)
    (H' : S10000x64.Idx → EReal) (j : S10000x32.Idx) (i : S50000x32.Idx)
    (hH : ∀ q : Fin 64, H' (ix2 (⟨(j 0).val, idx2_lt0 j⟩ : Fin 10000) q) = H (ix2 (⟨(i 0).val, idx2_lt0 i⟩ : Fin 50000) q))
    (hcol : (j 1).val = (i 1).val) : reluLayer H' W b j = reluLayer H W b i :=
  reluLayer_rows H H' W b j i hH hcol

theorem logits_at (H : S50000x64.Idx → EReal) (W : S64x32.Idx → EReal) (b : S1x32.Idx → EReal)
    (Wf : S32x40.Idx → EReal) (bf : S1x40.Idx → EReal)
    (H' : S10000x64.Idx → EReal) (j : S10000x40.Idx) (i : S50000x40.Idx)
    (hH : ∀ q : Fin 64, H' (ix2 (⟨(j 0).val, idx2_lt0 j⟩ : Fin 10000) q) = H (ix2 (⟨(i 0).val, idx2_lt0 i⟩ : Fin 50000) q))
    (hcol : (j 1).val = (i 1).val) : reluThenAffine H' W b Wf bf j = reluThenAffine H W b Wf bf i :=
  reluThenAffine_rows H H' W b Wf bf j i hH hcol

/-- WHAT POINT t WRITES BACK to the first output is its block of the clamped layer of the whole arrays. -/
theorem flushed5_eq (c : Dev nD) (t : Fin cfg1.N) :
    (dat1 V c).flushed 5 t
      = ((cfg1.win 5).blk t).view.read (Elt Ideal) (reluLayer (V c main_v83) (V c main_arg4) (V c main_v84)) := by
  show (cfg1.win 5).cut (grid1.coords t) ((dat1 V c).after 5 t) = _
  rw [after1_5]
  unfold out1_5
  rw [View.canon_unit_zero zero_off]
  simp only [View.ld_unit_zero (S := S10000x64) zero_off, View.ld_unit_zero (S := S64x32) zero_off,
    View.ld_unit_zero (S := S1x32) zero_off]
  rw [payload1_eq, weight2_block V c t, bias2_block V c t]
  obtain ⟨e0, e1, -, -, -, -, -, -, -, -, e10, -, -, -⟩ := index_facts t
  funext j
  show reluLayer (iblk1 V c 0 t) (V c main_arg4) (V c main_v84) j
    = reluLayer (V c main_v83) (V c main_arg4) (V c main_v84) (((cfg1.win 5).blk t).view.emb j)
  refine embedding_at (V c main_v83) (V c main_arg4) (V c main_v84) (iblk1 V c 0 t) j _ (fun q => ?_) ?_
  · show V c main_v83 (((cfg1.win 0).blk t).view.emb (ix2 (⟨(j 0).val, idx2_lt0 j⟩ : Fin 10000) q)) = _
    refine congrArg (V c main_v83) ?_
    funext a; apply Fin.ext
    match a with
    | ⟨0, _⟩ =>
      show win1_0.index t (0 : Fin 2) * 10000 + 1 * (j 0).val = win1_5.index t (0 : Fin 2) * 10000 + 1 * (j 0).val
      omega
    | ⟨1, _⟩ => show win1_0.index t (1 : Fin 2) * 64 + 1 * q.val = q.val; omega
  · show (j 1).val = win1_5.index t (1 : Fin 2) * 32 + 1 * (j 1).val
    omega

/-- WHAT POINT t WRITES BACK to the second output is its block of the affine layer of the clamped one. -/
theorem flushed6_eq (c : Dev nD) (t : Fin cfg1.N) :
    (dat1 V c).flushed 6 t
      = ((cfg1.win 6).blk t).view.read (Elt Ideal)
          (reluThenAffine (V c main_v83) (V c main_arg4) (V c main_v84) (V c main_arg6) (V c main_v85)) := by
  show (cfg1.win 6).cut (grid1.coords t) ((dat1 V c).after 6 t) = _
  rw [after1_6]
  unfold out1_6
  rw [View.canon_unit_zero zero_off]
  simp only [View.ld_unit_zero (S := S10000x64) zero_off, View.ld_unit_zero (S := S64x32) zero_off,
    View.ld_unit_zero (S := S1x32) zero_off, View.ld_unit_zero (S := S32x40) zero_off,
    View.ld_unit_zero (S := S1x40) zero_off]
  rw [payload2_eq, weight2_block V c t, bias2_block V c t, weightF_block V c t, biasF_block V c t]
  obtain ⟨e0, e1, -, -, -, -, -, -, -, -, -, -, e12, e13⟩ := index_facts t
  funext j
  show reluThenAffine (iblk1 V c 0 t) (V c main_arg4) (V c main_v84) (V c main_arg6) (V c main_v85) j
    = reluThenAffine (V c main_v83) (V c main_arg4) (V c main_v84) (V c main_arg6) (V c main_v85)
        (((cfg1.win 6).blk t).view.emb j)
  refine logits_at (V c main_v83) (V c main_arg4) (V c main_v84) (V c main_arg6) (V c main_v85) (iblk1 V c 0 t) j _
    (fun q => ?_) ?_
  · show V c main_v83 (((cfg1.win 0).blk t).view.emb (ix2 (⟨(j 0).val, idx2_lt0 j⟩ : Fin 10000) q)) = _
    refine congrArg (V c main_v83) ?_
    funext a; apply Fin.ext
    match a with
    | ⟨0, _⟩ =>
      show win1_0.index t (0 : Fin 2) * 10000 + 1 * (j 0).val = win1_6.index t (0 : Fin 2) * 10000 + 1 * (j 0).val
      omega
    | ⟨1, _⟩ => show win1_0.index t (1 : Fin 2) * 64 + 1 * q.val = q.val; omega
  · show (j 1).val = win1_6.index t (1 : Fin 2) * 40 + 1 * (j 1).val
    omega

/-- An index of an output array is in point t's block iff each coordinate is in the block's range on its axis. -/
theorem mem_block5 (t : Fin cfg1.N) (i : S50000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v86_0).slice (win1_5.rect t)).set ↔ _
  rw [View.set_slice_whole, Rect.mem_set_unit]
  exact Iff.rfl

theorem mem_block6 (t : Fin cfg1.N) (i : S50000x40.Idx) :
    i ∈ ((cfg1.win 6).blk t).view.set ↔ ∀ a : Fin 2, win1_6.index t a * S10000x40.size a ≤ (i a).val
      ∧ (i a).val < win1_6.index t a * S10000x40.size a + S10000x40.size a := by
  show i ∈ ((View.whole main_v86_1).slice (win1_6.rect t)).set ↔ _
  rw [View.set_slice_whole, Rect.mem_set_unit]
  exact Iff.rfl

/-- The five blocks cover each output array: row r is in the block of the point whose row block is r / 10000. -/
theorem cover5 (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  obtain ⟨t, ht⟩ := index_onto5 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_block5]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 32 ≤ (i 1).val ∧ (i 1).val < win1_5.index t (1 : Fin 2) * 32 + 32
    omega

theorem cover6 (i : S50000x40.Idx) :
    ∃ t : Fin cfg1.N, (cfg1.win 6).flush t = true ∧ i ∈ ((cfg1.win 6).blk t).view.set := by
  have hi0 : (i 0).val < 50000 := (i 0).isLt
  have hi1 : (i 1).val < 40 := (i 1).isLt
  obtain ⟨t, ht⟩ := index_onto6 ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_block6]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 40 ≤ (i 1).val ∧ (i 1).val < win1_6.index t (1 : Fin 2) * 40 + 40
    omega

/-- THE OUTPUT ARRAYS when the region is left: the clamped layer, and the affine layer of it, of the arrays the region
    was entered with. -/
theorem output5_eq (c : Dev nD) :
    (dat1 V c).arrAt 5 cfg1.N = reluLayer (V c main_v83) (V c main_arg4) (V c main_v84) :=
  (dat1 V c).arrAt_eq_of_cover 5 _ (fun t _ => flushed5_eq V c t) cover5

theorem output6_eq (c : Dev nD) :
    (dat1 V c).arrAt 6 cfg1.N
      = reluThenAffine (V c main_v83) (V c main_arg4) (V c main_v84) (V c main_arg6) (V c main_v85) :=
  (dat1 V c).arrAt_eq_of_cover 6 _ (fun t _ => flushed6_eq V c t) cover6

end Cert.KernelIdeal.SecondKernel

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.HostStretches.lean ====
/-
  What each stretch of host operations of the kernel program leaves in the buffers the kernels and the later stretches
  read, as a function of what the stretch found — for ANY contents W it is entered with.

  The program has four stretches: the edge ends, the degrees and the inverse square roots (first stretch); the choice
  "inverse square root where the degree is positive, zero elsewhere", an outlined function (second); the edge weights,
  two propagation steps at width 128 and the first bias as a row (third, up to the first kernel); two propagation steps
  at width 64 of the first kernel's result and the other two biases as rows (fourth, between the kernels). Each lemma
  reads ONE buffer after ONE stretch: the operations' results are substituted in order, and what is left is the
  composition of the shared propagation functions (Propagation.lean) by unfolding their names. A buffer a stretch does
  not write keeps what it held. The lemmas over the three stretches before the first kernel are then composed.
-/
import proofs.«140774_j5686536700273_1_alg».proof.Proof.Gen.KernelIdeal.Launch
import proofs.«140774_j5686536700273_1_alg».proof.Proof.Propagation
import proofs.«140774_j5686536700273_1_alg».proof.Proof.LibRowVector
import proofs.«140774_j5686536700273_1_alg».proof.Proof.LibConcatCongr
import Idealize.ShloMosaic.Lib.StableHlo.Run

set_option maxRecDepth 65536

noncomputable section

namespace Cert.KernelIdeal.Stretches

open Idealize.ShloMosaic Idealize.ShloMosaic.TcCoe Idealize.SL.Sem Idealize.ShloMosaic.StableHlo
open Cert.KernelIdeal Cert.KernelIdeal.Gen

-- a rewriting pass enters the two operands of a concatenation only by this congruence
attribute [local congr] Cert.Lib.ConcatCongr.concatenate_pair_congr

variable (W : Valuation τ sig (Elt Ideal))

/-! ## The first stretch: edge ends, degrees, inverse square roots -/

/-- The sources with the self loops appended. -/
theorem first_sources : after (hostOps0 (F := Ideal)) W (Proc.devRef .tc main_v3) = Cert.Propagation.sources (W (Proc.devRef .tc main_arg1)) := by
  after_results_simp
  rfl
/-- The targets with the self loops appended. -/
theorem first_targets : after (hostOps0 (F := Ideal)) W (Proc.devRef .tc main_v6) = Cert.Propagation.targets (W (Proc.devRef .tc main_arg1)) := by
  after_results_simp
  rfl
set_option maxHeartbeats 2000000 in
/-- Is each node's degree positive. -/
theorem first_positive : after (hostOps0 (F := Ideal)) W (Proc.devRef .tc main_v12) = Cert.Propagation.positive (Cert.Propagation.targets (W (Proc.devRef .tc main_arg1))) := by
  after_results_simp
  rfl
set_option maxHeartbeats 2000000 in
/-- The inverse square root of each node's degree. -/
theorem first_rsqrt : after (hostOps0 (F := Ideal)) W (Proc.devRef .tc main_v13) = Host.rsqrt (F := Ideal) (φ := .f32) (Cert.Propagation.degree (Cert.Propagation.targets (W (Proc.devRef .tc main_arg1)))) := by
  after_results_simp
  rfl
/-- The zero the choice falls back to. -/
theorem first_zero : after (hostOps0 (F := Ideal)) W (Proc.devRef .tc main_cst_2) = constant (F := Ideal) S_ .f32 0x00000000#32 := by
  after_results_simp
/-- The first stretch does not write this argument. -/
theorem first_keeps_arg0 : after (hostOps0 (F := Ideal)) W (Proc.devRef .tc main_arg0) = (W (Proc.devRef .tc main_arg0)) := by
  after_results_simp
/-- The first stretch does not write this argument. -/
theorem first_keeps_arg2 : after (hostOps0 (F := Ideal)) W (Proc.devRef .tc main_arg2) = (W (Proc.devRef .tc main_arg2)) := by
  after_results_simp
/-- The first stretch does not write this argument. -/
theorem first_keeps_arg3 : after (hostOps0 (F := Ideal)) W (Proc.devRef .tc main_arg3) = (W (Proc.devRef .tc main_arg3)) := by
  after_results_simp

/-! ## The second stretch: the inverse square root where the degree is positive, zero elsewhere -/

/-- The outlined choice, its operands read from the buffers it is called on. -/
theorem second_choice : after (hostOps0_1 (F := Ideal)) W (Proc.devRef .tc main_v14) = select (W (Proc.devRef .tc main_v12)) (W (Proc.devRef .tc main_v13)) (broadcastInDim S50000 ![] bcast_S_S50000 (id (W (Proc.devRef .tc main_cst_2)))) := by
  after_results_simp
  rfl
/-- The second stretch does not write this buffer. -/
theorem second_keeps_v3 : after (hostOps0_1 (F := Ideal)) W (Proc.devRef .tc main_v3) = (W (Proc.devRef .tc main_v3)) := by
  after_results_simp
/-- The second stretch does not write this buffer. -/
theorem second_keeps_v6 : after (hostOps0_1 (F := Ideal)) W (Proc.devRef .tc main_v6) = (W (Proc.devRef .tc main_v6)) := by
  after_results_simp
/-- The second stretch does not write this buffer. -/
theorem second_keeps_arg0 : after (hostOps0_1 (F := Ideal)) W (Proc.devRef .tc main_arg0) = (W (Proc.devRef .tc main_arg0)) := by
  after_results_simp
/-- The second stretch does not write this buffer. -/
theorem second_keeps_arg2 : after (hostOps0_1 (F := Ideal)) W (Proc.devRef .tc main_arg2) = (W (Proc.devRef .tc main_arg2)) := by
  after_results_simp
/-- The second stretch does not write this buffer. -/
theorem second_keeps_arg3 : after (hostOps0_1 (F := Ideal)) W (Proc.devRef .tc main_arg3) = (W (Proc.devRef .tc main_arg3)) := by
  after_results_simp

/-! ## The third stretch: edge weights, two propagation steps at width 128, the first bias as a row -/

set_option maxHeartbeats 4000000 in
/-- The edge weights from the per-node quantity. -/
theorem third_weights : after (hostOps0_2 (F := Ideal)) W (Proc.devRef .tc main_v29) = Cert.Propagation.weightWith (W (Proc.devRef .tc main_v3)) (W (Proc.devRef .tc main_v6)) (W (Proc.devRef .tc main_v14)) := by
  after_results_simp
  rfl
set_option maxHeartbeats 8000000 in
/-- Two propagation steps of the first argument. -/
theorem third_features : after (hostOps0_2 (F := Ideal)) W (Proc.devRef .tc main_v55) = Cert.Propagation.stepWith128 (W (Proc.devRef .tc main_v3)) (W (Proc.devRef .tc main_v6)) (Cert.Propagation.weightWith (W (Proc.devRef .tc main_v3)) (W (Proc.devRef .tc main_v6)) (W (Proc.devRef .tc main_v14))) (Cert.Propagation.stepWith128 (W (Proc.devRef .tc main_v3)) (W (Proc.devRef .tc main_v6)) (Cert.Propagation.weightWith (W (Proc.devRef .tc main_v3)) (W (Proc.devRef .tc main_v6)) (W (Proc.devRef .tc main_v14))) (W (Proc.devRef .tc main_arg0))) := by
  after_results_simp
  rfl
/-- The first bias vector as a 1×64 row. -/
theorem third_bias : after (hostOps0_2 (F := Ideal)) W (Proc.devRef .tc main_v56) = Cert.Lib.RowVector.asRow (W (Proc.devRef .tc main_arg3)) := by
  after_results_simp
  exact Cert.Lib.RowVector.shapeCast_eq_asRow _ _
/-- The third stretch does not write this buffer. -/
theorem third_keeps_v3 : after (hostOps0_2 (F := Ideal)) W (Proc.devRef .tc main_v3) = (W (Proc.devRef .tc main_v3)) := by
  after_results_simp
/-- The third stretch does not write this buffer. -/
theorem third_keeps_v6 : after (hostOps0_2 (F := Ideal)) W (Proc.devRef .tc main_v6) = (W (Proc.devRef .tc main_v6)) := by
  after_results_simp
/-- The third stretch does not write this buffer. -/
theorem third_keeps_arg2 : after (hostOps0_2 (F := Ideal)) W (Proc.devRef .tc main_arg2) = (W (Proc.devRef .tc main_arg2)) := by
  after_results_simp

/-! ## The fourth stretch, between the kernels: two propagation steps at width 64, the other biases as rows -/

set_option maxHeartbeats 8000000 in
/-- Two propagation steps of the first kernel's result, with the edge ends and weights the earlier stretches left. -/
theorem fourth_features : after (hostOps1 (F := Ideal)) W (Proc.devRef .tc main_v83) = Cert.Propagation.stepWith64 (W (Proc.devRef .tc main_v3)) (W (Proc.devRef .tc main_v6)) (W (Proc.devRef .tc main_v29)) (Cert.Propagation.stepWith64 (W (Proc.devRef .tc main_v3)) (W (Proc.devRef .tc main_v6)) (W (Proc.devRef .tc main_v29)) (W (Proc.devRef .tc main_v57))) := by
  after_results_simp
  rfl
/-- The second bias vector as a 1×32 row. -/
theorem fourth_bias2 : after (hostOps1 (F := Ideal)) W (Proc.devRef .tc main_v84) = Cert.Lib.RowVector.asRow (W (Proc.devRef .tc main_arg5)) := by
  after_results_simp
  exact Cert.Lib.RowVector.shapeCast_eq_asRow _ _
/-- The last bias vector as a 1×40 row. -/
theorem fourth_biasF : after (hostOps1 (F := Ideal)) W (Proc.devRef .tc main_v85) = Cert.Lib.RowVector.asRow (W (Proc.devRef .tc main_arg7)) := by
  after_results_simp
  exact Cert.Lib.RowVector.shapeCast_eq_asRow _ _
/-- The fourth stretch does not write this argument. -/
theorem fourth_keeps_arg5 : after (hostOps1 (F := Ideal)) W (Proc.devRef .tc main_arg5) = (W (Proc.devRef .tc main_arg5)) := by
  after_results_simp
/-- The fourth stretch does not write this argument. -/
theorem fourth_keeps_arg7 : after (hostOps1 (F := Ideal)) W (Proc.devRef .tc main_arg7) = (W (Proc.devRef .tc main_arg7)) := by
  after_results_simp

end Cert.KernelIdeal.Stretches

end
-- ==== Proof.KernelValue.lean ====
/-
  The kernel program's two results are the network's functions of its arguments.

  Read back from the final memory: a result buffer holds what the second kernel's region left in its window's array,
  which is the clamped layer (for the logits: the affine layer of it) of the arrays that region was entered with
  (SecondKernel.lean). Those are what the stretch between the kernels computed from the first kernel's result: two
  propagation steps of it, and the bias vectors as rows (HostStretches.lean). The first kernel's result is the clamped
  layer of what ITS region was entered with (FirstKernel.lean): two propagation steps of the first argument, computed
  by the three stretches before it. The weights, and the edge ends and edge weights the fourth stretch reads, pass
  through the regions and the stretches unwritten.
-/
import proofs.«140774_j5686536700273_1_alg».proof.Proof.WholeRun
import proofs.«140774_j5686536700273_1_alg».proof.Proof.FirstKernel
import proofs.«140774_j5686536700273_1_alg».proof.Proof.SecondKernel
import proofs.«140774_j5686536700273_1_alg».proof.Proof.HostStretches
import proofs.«140774_j5686536700273_1_alg».proof.Proof.Network

set_option maxRecDepth 65536

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.Stretches
open Cert.Network Cert.Propagation Cert.Lib.LayerBlocks Cert.Lib.RowVector

variable (m : (ℓ : Loc nD τ sig) → Buf (Elt Ideal) ℓ) (ρ : Dev nD → PrngReg) (c : Dev nD)

/-! ## What the first kernel's region is entered with -/

/-- The edge ends and the edge weights the three stretches leave. -/
theorem entry_sources : W3 m ρ c (Proc.devRef .tc main_v3) = sources (m ((c.tc : Thread nD τ).loc main_arg1)) := by
  show after hostOps0_2 (after hostOps0_1 (after hostOps0 (W0 m ρ c))) (Proc.devRef .tc main_v3) = _
  rw [third_keeps_v3, second_keeps_v3, first_sources]

theorem entry_targets : W3 m ρ c (Proc.devRef .tc main_v6) = targets (m ((c.tc : Thread nD τ).loc main_arg1)) := by
  show after hostOps0_2 (after hostOps0_1 (after hostOps0 (W0 m ρ c))) (Proc.devRef .tc main_v6) = _
  rw [third_keeps_v6, second_keeps_v6, first_targets]

theorem entry_weights : W3 m ρ c (Proc.devRef .tc main_v29) = weights (m ((c.tc : Thread nD τ).loc main_arg1)) := by
  show after hostOps0_2 (after hostOps0_1 (after hostOps0 (W0 m ρ c))) (Proc.devRef .tc main_v29) = _
  rw [third_weights, second_keeps_v3, second_keeps_v6, second_choice, first_sources, first_targets, first_positive,
    first_rsqrt, first_zero]
  rfl

/-- The first kernel's feature window: two propagation steps of the first argument. -/
theorem entry_features : V3 m ρ c main_v55 = twoSteps128 (m ((c.tc : Thread nD τ).loc main_arg1)) (m ((c.tc : Thread nD τ).loc main_arg0)) := by
  show after hostOps0_2 (after hostOps0_1 (after hostOps0 (W0 m ρ c))) (Proc.devRef .tc main_v55) = _
  rw [third_features, second_keeps_v3, second_keeps_v6, second_choice, second_keeps_arg0, first_sources, first_targets,
    first_positive, first_rsqrt, first_zero, first_keeps_arg0]
  rfl

/-- Its weight window: the third argument, unwritten. -/
theorem entry_weight1 : V3 m ρ c main_arg2 = (m ((c.tc : Thread nD τ).loc main_arg2)) := by
  show after hostOps0_2 (after hostOps0_1 (after hostOps0 (W0 m ρ c))) (Proc.devRef .tc main_arg2) = _
  rw [third_keeps_arg2, second_keeps_arg2, first_keeps_arg2]

/-- Its bias window: the fourth argument as a 1×64 row. -/
theorem entry_bias1 : V3 m ρ c main_v56 = asRow (m ((c.tc : Thread nD τ).loc main_arg3)) := by
  show after hostOps0_2 (after hostOps0_1 (after hostOps0 (W0 m ρ c))) (Proc.devRef .tc main_v56) = _
  rw [third_bias, second_keeps_arg3, first_keeps_arg3]

/-! ## The first kernel's result -/

/-- What the first kernel's region leaves in its output array: the hidden features. -/
theorem hidden_eq : W4 m ρ c (Proc.devRef .tc main_v57)
    = hidden (m ((c.tc : Thread nD τ).loc main_arg0)) (m ((c.tc : Thread nD τ).loc main_arg1)) (m ((c.tc : Thread nD τ).loc main_arg2)) (m ((c.tc : Thread nD τ).loc main_arg3)) := by
  rw [show W4 m ρ c (Proc.devRef .tc main_v57) = (dat0 (V3 m ρ) c).arrAt 3 cfg0.N from W4_arr m ρ c 3,
    FirstKernel.output_eq, entry_features, entry_weight1, entry_bias1]
  rfl

/-! ## What the second kernel's region is entered with -/

/-- Its feature window: two propagation steps of the hidden features. -/
theorem between_features : V5 m ρ c main_v83
    = twoSteps64 (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))) := by
  show after hostOps1 (W4 m ρ c) (Proc.devRef .tc main_v83) = _
  rw [fourth_features, W4_of_ne m ρ c main_v3 (by decide), W4_of_ne m ρ c main_v6 (by decide),
    W4_of_ne m ρ c main_v29 (by decide), hidden_eq, entry_sources, entry_targets, entry_weights]
  rfl

/-- An argument the fourth stretch and the second region leave alone holds at the fourth stretch's entry what it
    holds at the end. -/
theorem between_arg5 : W4 m ρ c (Proc.devRef .tc main_arg5) = (m ((c.tc : Thread nD τ).loc main_arg5)) :=
  (fourth_keeps_arg5 (W4 m ρ c)).symm.trans ((W6_of_ne m ρ c main_arg5 (by decide)).symm.trans (W6_main_arg5 m ρ c))

theorem between_arg7 : W4 m ρ c (Proc.devRef .tc main_arg7) = (m ((c.tc : Thread nD τ).loc main_arg7)) :=
  (fourth_keeps_arg7 (W4 m ρ c)).symm.trans ((W6_of_ne m ρ c main_arg7 (by decide)).symm.trans (W6_main_arg7 m ρ c))

/-- Its two bias windows: the sixth and the eighth argument as rows. -/
theorem between_bias2 : V5 m ρ c main_v84 = asRow (m ((c.tc : Thread nD τ).loc main_arg5)) := by
  show after hostOps1 (W4 m ρ c) (Proc.devRef .tc main_v84) = _
  rw [fourth_bias2, between_arg5]

theorem between_biasF : V5 m ρ c main_v85 = asRow (m ((c.tc : Thread nD τ).loc main_arg7)) := by
  show after hostOps1 (W4 m ρ c) (Proc.devRef .tc main_v85) = _
  rw [fourth_biasF, between_arg7]

/-- Its two weight windows: the fifth and the seventh argument. An input window's array is left by its region as it
    was found, and the argument ends as launched. -/
theorem between_weight2 : V5 m ρ c main_arg4 = (m ((c.tc : Thread nD τ).loc main_arg4)) :=
  ((W6_arr m ρ c 1).trans (((dat1 (V5 m ρ) c).arrAt_in 1 rfl _).trans (A_eq1 (V5 m ρ) c 1))).symm.trans
    (W6_main_arg4 m ρ c)

theorem between_weightF : V5 m ρ c main_arg6 = (m ((c.tc : Thread nD τ).loc main_arg6)) :=
  ((W6_arr m ρ c 3).trans (((dat1 (V5 m ρ) c).arrAt_in 3 rfl _).trans (A_eq1 (V5 m ρ) c 3))).symm.trans
    (W6_main_arg6 m ρ c)

/-! ## The two results -/

/-- The first result buffer ends at the embedding. -/
theorem embedding_eq : W6 m ρ c (Proc.devRef .tc main_v86_0)
    = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [show W6 m ρ c (Proc.devRef .tc main_v86_0) = (dat1 (V5 m ρ) c).arrAt 5 cfg1.N from W6_arr m ρ c 5,
    SecondKernel.output5_eq, between_features, between_weight2, between_bias2]
  rfl

/-- The second result buffer ends at the logits. -/
theorem logits_eq' : W6 m ρ c (Proc.devRef .tc main_v86_1)
    = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show W6 m ρ c (Proc.devRef .tc main_v86_1) = (dat1 (V5 m ρ) c).arrAt 6 cfg1.N from W6_arr m ρ c 6,
    SecondKernel.output6_eq, between_features, between_weight2, between_bias2, between_weightF, between_biasF]
  rfl

/-! ## The run, read -/

/-- Every weakly fair execution of the kernel program terminates, nothing faulting, with the two result buffers at
    the embedding and the logits of the arguments, and the arguments as launched. -/
theorem run : θ_run defs (onTc (τ := τ) (main (F := Ideal))) ⟨m, fun _ => 0, ρ⟩ fun r => ∀ c : Dev nD,
      r.2.mem ((c.tc : Thread nD τ).loc main_v86_0)
        = embedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v86_1)
        = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h.at m ρ c main_v86_0 (by decide)).trans (embedding_eq m ρ c),
     (h.at m ρ c main_v86_1 (by decide)).trans (logits_eq' m ρ c),
     (h.at m ρ c main_arg0 (by decide)).trans (W6_main_arg0 m ρ c),
     (h.at m ρ c main_arg1 (by decide)).trans (W6_main_arg1 m ρ c),
     (h.at m ρ c main_arg2 (by decide)).trans (W6_main_arg2 m ρ c),
     (h.at m ρ c main_arg3 (by decide)).trans (W6_main_arg3 m ρ c),
     (h.at m ρ c main_arg4 (by decide)).trans (W6_main_arg4 m ρ c),
     (h.at m ρ c main_arg5 (by decide)).trans (W6_main_arg5 m ρ c),
     (h.at m ρ c main_arg6 (by decide)).trans (W6_main_arg6 m ρ c),
     (h.at m ρ c main_arg7 (by decide)).trans (W6_main_arg7 m ρ c)⟩)
    (WholeRun.run (F := Ideal) m ρ)

end Cert.KernelIdeal.KernelValue

end
-- ==== Proof.lean ====
/-
  A two-layer simple graph convolution, its dense stages computed by two kernels, against the same network computed
  on the host: equal results on the extended reals.

  Both programs take node features x (50000×128), an edge list e (2×800000) and three dense layers (W₁, b₁), (W₂, b₂),
  (W_f, b_f). With P = two steps of propagation along the edges with self loops, each edge weighted by the inverse
  square roots of its ends' degrees, they compute
      hidden    = max(P(x)·W₁ + b₁, 0)          (50000×64)
      embedding = max(P(hidden)·W₂ + b₂, 0)     (50000×32)
      logits    = embedding·W_f + b_f            (50000×40)
  and return the embedding and the logits. The propagation is the same sequence of host operations in both programs
  and is carried as one function (Proof/Propagation.lean). The kernel program computes each dense stage ten thousand
  rows at a time: an entry of X·W + b depends on one row of X only, so the stage of a block of rows is that block of
  the stage of the whole array, and the five blocks cover it (Proof/FirstKernel.lean, Proof/SecondKernel.lean). A
  narrowing of a float is the identity on the extended reals, a product accumulated into zeros and the host's
  dot_general are the same sum of products; nothing is distributed or cancelled, so the precondition (every float input
  finite) is never opened.

  The kernel program's run with its two results named is Proof/WholeRun.lean and Proof/KernelValue.lean; the
  reference's run is Proof/RefRunPatched.lean, its results read in Proof/RefValue.lean. The idealized kernel is the
  kernel's own text read on the extended reals (the idealization rewrote nothing), so that claim is trivial.
-/
import proofs.«140774_j5686536700273_1_alg».proof.Defs
import proofs.«140774_j5686536700273_1_alg».proof.Proof.Gen.Kernel
import proofs.«140774_j5686536700273_1_alg».proof.Proof.Gen.Kernel.Frame
import proofs.«140774_j5686536700273_1_alg».proof.Proof.Gen.KernelIdeal
import proofs.«140774_j5686536700273_1_alg».proof.Proof.Gen.KernelIdeal.Frame
import proofs.«140774_j5686536700273_1_alg».proof.Proof.Gen.ReferenceIdeal
import proofs.«140774_j5686536700273_1_alg».proof.Proof.Gen.Pre_finite_inputs
import proofs.«140774_j5686536700273_1_alg».proof.Proof.RefRunPatched
import proofs.«140774_j5686536700273_1_alg».proof.Proof.RefValue
import proofs.«140774_j5686536700273_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories agreeing on the arguments both programs end with the embedding and the logits of those arguments. -/
theorem algebraic : Cert.algebraic_KernelIdeal_ReferenceIdeal := by
  intro m ρ m' ρ' _ hagree
  refine ⟨fun c => Cert.Network.embedding (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Network.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.RefValue.res0_eq, (hagree c).1, (hagree c).2.1, (hagree c).2.2.1, (hagree c).2.2.2.1, (hagree c).2.2.2.2.1, (hagree c).2.2.2.2.2.1]
  · rw [Cert.ReferenceIdeal.RefValue.res1_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
